-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v64)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v64) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v87) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S20000x512 : Shape := ⟨2, ![20000, 512]⟩
abbrev S2x640000 : Shape := ⟨2, ![2, 640000]⟩
abbrev S512x256 : Shape := ⟨2, ![512, 256]⟩
abbrev S256 : Shape := ⟨1, ![256]⟩
abbrev S256x40 : Shape := ⟨2, ![256, 40]⟩
abbrev S40 : Shape := ⟨1, ![40]⟩
abbrev S_ : Shape := ⟨0, ![]⟩

class Facts : Prop where
  bcast_S_S20000x512 : S_.BroadcastsInDim S20000x512 (![] : Fin 0 → Fin S20000x512.rank)
  reducesTo_S20000x512_S_d0_1 : S20000x512.ReducesTo [0, 1] S_
  h_S_ : 0 < S_.numel
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_
  bcast_S_S256x40 : S_.BroadcastsInDim S256x40 (![] : Fin 0 → Fin S256x40.rank)
  reducesTo_S256x40_S_d0_1 : S256x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg5 : FVec F S40 .f32) (main_v13 : IVec S_ 1) (main_v16 : IVec S256x40 1) : IVec S_ 1 :=
  let main_c_5 : IVec S_ 1 := constantI S_ 1 1#1
  let main_v17 : IVec S_ 1 := (fun x v => Host.reduce IntOp.andi x v reducesTo_S256x40_S_d0_1 h_S_) main_v16 main_c_5
  let main_v18 : IVec S_ 1 := andi main_v13 main_v17
  let main_v19 : FVec F S40 .f32 := Host.absf main_arg5
  let main_cst_6 : FVec F S_ .f32 := constant S_ .f32 0x7F800000#32
  let main_v20 : FVec F S40 .f32 := broadcastInDim S40 ![] bcast_S_S40 main_cst_6
  let main_v21 : IVec S40 1 := cmpf .olt main_v19 main_v20
  let main_c_7 : IVec S_ 1 := constantI S_ 1 1#1
  let main_v22 : IVec S_ 1 := (fun x v => Host.reduce IntOp.andi x v reducesTo_S40_S_d0 h_S_) main_v21 main_c_7
  let main_v23 : IVec S_ 1 := andi main_v18 main_v22
  main_v23

def fn {F : FTy → Type} [FloatOps F] (main_arg0 : FVec F S20000x512 .f32) (main_arg1 : IVec S2x640000 32) (main_arg2 : FVec F S512x256 .f32) (main_arg3 : FVec F S256 .f32) (main_arg4 : FVec F S256x40 .f32) (main_arg5 : FVec F S40 .f32) : IVec S_ 1 :=
  let main_v0 : FVec F S20000x512 .f32 := Host.absf main_arg0
  let main_cst : FVec F S_ .f32 := constant S_ .f32 0x7F800000#32
  let main_v1 : FVec F S20000x512 .f32 := broadcastInDim S20000x512 ![] bcast_S_S20000x512 main_cst
  let main_v2 : IVec S20000x512 1 := cmpf .olt main_v0 main_v1
  let main_c : IVec S_ 1 := constantI S_ 1 1#1
  let main_v3 : IVec S_ 1 := (fun x v => Host.reduce IntOp.andi x v reducesTo_S20000x512_S_d0_1 h_S_) main_v2 main_c
  let main_v4 : FVec F S512x256 .f32 := Host.absf main_arg2
  let main_cst_0 : FVec F S_ .f32 := constant S_ .f32 0x7F800000#32
  let main_v5 : FVec F S512x256 .f32 := broadcastInDim S512x256 ![] bcast_S_S512x256 main_cst_0
  let main_v6 : IVec S512x256 1 := cmpf .olt main_v4 main_v5
  let main_c_1 : IVec S_ 1 := constantI S_ 1 1#1
  let main_v7 : IVec S_ 1 := (fun x v => Host.reduce IntOp.andi x v reducesTo_S512x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x40 .f32 := Host.absf main_arg4
  let main_cst_4 : FVec F S_ .f32 := constant S_ .f32 0x7F800000#32
  let main_v15 : FVec F S256x40 .f32 := broadcastInDim S256x40 ![] bcast_S_S256x40 main_cst_4
  let main_v16 : IVec S256x40 1 := cmpf .olt main_v14 main_v15
  fn_part1 (F := F) main_arg5 main_v13 main_v16
-- ==== Kernel.lean ====
abbrev S20000x512 : Shape := ⟨2, ![20000, 512]⟩
abbrev S2x640000 : Shape := ⟨2, ![2, 640000]⟩
abbrev S512x256 : Shape := ⟨2, ![512, 256]⟩
abbrev S256 : Shape := ⟨1, ![256]⟩
abbrev S256x40 : Shape := ⟨2, ![256, 40]⟩
abbrev S40 : Shape := ⟨1, ![40]⟩
abbrev S1x640000 : Shape := ⟨2, ![1, 640000]⟩
abbrev S640000 : Shape := ⟨1, ![640000]⟩
abbrev S_ : Shape := ⟨0, ![]⟩
abbrev S20000 : Shape := ⟨1, ![20000]⟩
abbrev S640000x1 : Shape := ⟨2, ![640000, 1]⟩
abbrev S20000x1 : Shape := ⟨2, ![20000, 1]⟩
abbrev S20000x256 : Shape := ⟨2, ![20000, 256]⟩
abbrev S2000x512 : Shape := ⟨2, ![2000, 512]⟩
abbrev S2000x256 : Shape := ⟨2, ![2000, 256]⟩
abbrev S640000x256 : Shape := ⟨2, ![640000, 256]⟩
abbrev S1x256 : Shape := ⟨2, ![1, 256]⟩
abbrev S2000x1 : Shape := ⟨2, ![2000, 1]⟩
abbrev S20000x40 : Shape := ⟨2, ![20000, 40]⟩
abbrev S2000x40 : Shape := ⟨2, ![2000, 40]⟩
abbrev S640000x40 : Shape := ⟨2, ![640000, 40]⟩
abbrev S1x40 : Shape := ⟨2, ![1, 40]⟩

abbrev nBuf : Space → Nat
  | .hbm => 85
  | .vmem => 28
  | .smem => 0
  | _ => 0

abbrev bufTy : (tb : Table) → Fin (tcTables nBuf tb) → BufTy
  | .hbm, ⟨0, _⟩ => ⟨S20000x512, .f32⟩
  | .hbm, ⟨1, _⟩ => ⟨S2x640000, .i32⟩
  | .hbm, ⟨2, _⟩ => ⟨S512x256, .f32⟩
  | .hbm, ⟨3, _⟩ => ⟨S256, .f32⟩
  | .hbm, ⟨4, _⟩ => ⟨S256x40, .f32⟩
  | .hbm, ⟨5, _⟩ => ⟨S40, .f32⟩
  | .hbm, ⟨6, _⟩ => ⟨S1x640000, .i32⟩
  | .hbm, ⟨7, _⟩ => ⟨S640000, .i32⟩
  | .hbm, ⟨8, _⟩ => ⟨S1x640000, .i32⟩
  | .hbm, ⟨9, _⟩ => ⟨S640000, .i32⟩
  | .hbm, ⟨10, _⟩ => ⟨S_, .f32⟩
  | .hbm, ⟨11, _⟩ => ⟨S640000, .f32⟩
  | .hbm, ⟨12, _⟩ => ⟨S_, .f32⟩
  | .hbm, ⟨13, _⟩ => ⟨S20000, .f32⟩
  | .hbm, ⟨14, _⟩ => ⟨S640000x1, .i32⟩
  | .hbm, ⟨15, _⟩ => ⟨S20000, .f32⟩
  | .hbm, ⟨16, _⟩ => ⟨S_, .f32⟩
  | .hbm, ⟨17, _⟩ => ⟨S20000, .f32⟩
  | .hbm, ⟨18, _⟩ => ⟨S20000, .f32⟩
  | .hbm, ⟨19, _⟩ => ⟨S20000, .f32⟩
  | .hbm, ⟨20, _⟩ => ⟨S20000, .f32⟩
  | .hbm, ⟨21, _⟩ => ⟨S20000x1, .f32⟩
  | .hbm, ⟨22, _⟩ => ⟨S_, .i32⟩
  | .hbm, ⟨23, _⟩ => ⟨S640000, .i32⟩
  | .hbm, ⟨24, _⟩ => ⟨S640000, .i1⟩
  | .hbm, ⟨25, _⟩ => ⟨S_, .i32⟩
  | .hbm, ⟨26, _⟩ => ⟨S640000, .i32⟩
  | .hbm, ⟨27, _⟩ => ⟨S640000, .i32⟩
  | .hbm, ⟨28, _⟩ => ⟨S640000, .i32⟩
  | .hbm, ⟨29, _⟩ => ⟨S640000x1, .i32⟩
  | .hbm, ⟨30, _⟩ => ⟨S640000, .f32⟩
  | .hbm, ⟨31, _⟩ => ⟨S_, .i32⟩
  | .hbm, ⟨32, _⟩ => ⟨S640000, .i32⟩
  | .hbm, ⟨33, _⟩ => ⟨S640000, .i1⟩
  | .hbm, ⟨34, _⟩ => ⟨S_, .i32⟩
  | .hbm, ⟨35, _⟩ => ⟨S640000, .i32⟩
  | .hbm, ⟨36, _⟩ => ⟨S640000, .i32⟩
  | .hbm, ⟨37, _⟩ => ⟨S640000, .i32⟩
  | .hbm, ⟨38, _⟩ => ⟨S640000x1, .i32⟩
  | .hbm, ⟨39, _⟩ => ⟨S640000, .f32⟩
  | .hbm, ⟨40, _⟩ => ⟨S640000, .f32⟩
  | .hbm, ⟨41, _⟩ => ⟨S640000x1, .f32⟩
  | .hbm, ⟨42, _⟩ => ⟨S20000x512, .bf16⟩
  | .hbm, ⟨43, _⟩ => ⟨S512x256, .bf16⟩
  | .hbm, ⟨44, _⟩ => ⟨S20000x256, .f32⟩
  | .hbm, ⟨45, _⟩ => ⟨S_, .i32⟩
  | .hbm, ⟨46, _⟩ => ⟨S640000, .i32⟩
  | .hbm, ⟨47, _⟩ => ⟨S640000, .i1⟩
  | .hbm, ⟨48, _⟩ => ⟨S_, .i32⟩
  | .hbm, ⟨49, _⟩ => ⟨S640000, .i32⟩
  | .hbm, ⟨50, _⟩ => ⟨S640000, .i32⟩
  | .hbm, ⟨51, _⟩ => ⟨S640000, .i32⟩
  | .hbm, ⟨52, _⟩ => ⟨S640000x1, .i32⟩
  | .hbm, ⟨53, _⟩ => ⟨S640000x256, .f32⟩
  | .hbm, ⟨54, _⟩ => ⟨S640000x256, .f32⟩
  | .hbm, ⟨55, _⟩ => ⟨S640000x256, .f32⟩
  | .hbm, ⟨56, _⟩ => ⟨S_, .f32⟩
  | .hbm, ⟨57, _⟩ => ⟨S20000x256, .f32⟩
  | .hbm, ⟨58, _⟩ => ⟨S640000x1, .i32⟩
  | .hbm, ⟨59, _⟩ => ⟨S20000x256, .f32⟩
  | .hbm, ⟨60, _⟩ => ⟨S1x256, .f32⟩
  | .hbm, ⟨61, _⟩ => ⟨S20000x256, .f32⟩
  | .hbm, ⟨62, _⟩ => ⟨S20000x256, .bf16⟩
  | .hbm, ⟨63, _⟩ => ⟨S256x40, .bf16⟩
  | .hbm, ⟨64, _⟩ => ⟨S20000x40, .f32⟩
  | .hbm, ⟨65, _⟩ => ⟨S_, .i32⟩
  | .hbm, ⟨66, _⟩ => ⟨S640000, .i32⟩
  | .hbm, ⟨67, _⟩ => ⟨S640000, .i1⟩
  | .hbm, ⟨68, _⟩ => ⟨S_, .i32⟩
  | .hbm, ⟨69, _⟩ => ⟨S640000, .i32⟩
  | .hbm, ⟨70, _⟩ => ⟨S640000, .i32⟩
  | .hbm, ⟨71, _⟩ => ⟨S640000, .i32⟩
  | .hbm, ⟨72, _⟩ => ⟨S640000x1, .i32⟩
  | .hbm, ⟨73, _⟩ => ⟨S640000x40, .f32⟩
  | .hbm, ⟨74, _⟩ => ⟨S640000x40, .f32⟩
  | .hbm, ⟨75, _⟩ => ⟨S640000x40, .f32⟩
  | .hbm, ⟨76, _⟩ => ⟨S_, .f32⟩
  | .hbm, ⟨77, _⟩ => ⟨S20000x40, .f32⟩
  | .hbm, ⟨78, _⟩ => ⟨S640000x1, .i32⟩
  | .hbm, ⟨79, _⟩ => ⟨S20000x40, .f32⟩
  | .hbm, ⟨80, _⟩ => ⟨S1x40, .f32⟩
  | .hbm, ⟨81, _⟩ => ⟨S20000x40, .f32⟩
  | .hbm, ⟨82, _⟩ => ⟨S_, .f32⟩
  | .hbm, ⟨83, _⟩ => ⟨S20000x40, .f32⟩
  | .hbm, ⟨84, _⟩ => ⟨S20000x40, .f32⟩
  | .local _ .vmem, ⟨0, _⟩ => ⟨S2000x512, .bf16⟩
  | .local _ .vmem, ⟨1, _⟩ => ⟨S2000x512, .bf16⟩
  | .local _ .vmem, ⟨2, _⟩ => ⟨S512x256, .bf16⟩
  | .local _ .vmem, ⟨3, _⟩ => ⟨S2000x256, .f32⟩
  | .local _ .vmem, ⟨4, _⟩ => ⟨S2000x256, .f32⟩
  | .local _ .vmem, ⟨5, _⟩ => ⟨S2000x256, .f32⟩
  | .local _ .vmem, ⟨6, _⟩ => ⟨S2000x256, .f32⟩
  | .local _ .vmem, ⟨7, _⟩ => ⟨S2000x256, .f32⟩
  | .local _ .vmem, ⟨8, _⟩ => ⟨S2000x256, .f32⟩
  | .local _ .vmem, ⟨9, _⟩ => ⟨S2000x1, .f32⟩
  | .local _ .vmem, ⟨10, _⟩ => ⟨S2000x1, .f32⟩
  | .local _ .vmem, ⟨11, _⟩ => ⟨S1x256, .f32⟩
  | .local _ .vmem, ⟨12, _⟩ => ⟨S2000x256, .f32⟩
  | .local _ .vmem, ⟨13, _⟩ => ⟨S2000x256, .f32⟩
  | .local _ .vmem, ⟨14, _⟩ => ⟨S2000x256, .bf16⟩
  | .local _ .vmem, ⟨15, _⟩ => ⟨S2000x256, .bf16⟩
  | .local _ .vmem, ⟨16, _⟩ => ⟨S256x40, .bf16⟩
  | .local _ .vmem, ⟨17, _⟩ => ⟨S2000x40, .f32⟩
  | .local _ .vmem, ⟨18, _⟩ => ⟨S2000x40, .f32⟩
  | .local _ .vmem, ⟨19, _⟩ => ⟨S2000x40, .f32⟩
  | .local _ .vmem, ⟨20, _⟩ => ⟨S2000x40, .f32⟩
  | .local _ .vmem, ⟨21, _⟩ => ⟨S2000x40, .f32⟩
  | .local _ .vmem, ⟨22, _⟩ => ⟨S2000x40, .f32⟩
  | .local _ .vmem, ⟨23, _⟩ => ⟨S2000x1, .f32⟩
  | .local _ .vmem, ⟨24, _⟩ => ⟨S2000x1, .f32⟩
  | .local _ .vmem, ⟨25, _⟩ => ⟨S1x40, .f32⟩
  | .local _ .vmem, ⟨26, _⟩ => ⟨S2000x40, .f32⟩
  | .local _ .vmem, ⟨27, _⟩ => ⟨S2000x40, .f32⟩
  | _, _ => ⟨S20000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_c : Ref sig .tc := ⟨.hbm, 22, rfl⟩
abbrev main_v13 : Ref sig .tc := ⟨.hbm, 23, rfl⟩
abbrev main_v14 : Ref sig .tc := ⟨.hbm, 24, rfl⟩
abbrev main_c_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_c_3 : Ref sig .tc := ⟨.hbm, 31, rfl⟩
abbrev main_v20 : Ref sig .tc := ⟨.hbm, 32, rfl⟩
abbrev main_v21 : Ref sig .tc := ⟨.hbm, 33, rfl⟩
abbrev main_c_4 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_c_5 : Ref sig .tc := ⟨.hbm, 45, rfl⟩
abbrev main_v32 : Ref sig .tc := ⟨.hbm, 46, rfl⟩
abbrev main_v33 : Ref sig .tc := ⟨.hbm, 47, rfl⟩
abbrev main_c_6 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_7 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_c_8 : Ref sig .tc := ⟨.hbm, 65, rfl⟩
abbrev main_v49 : Ref sig .tc := ⟨.hbm, 66, rfl⟩
abbrev main_v50 : Ref sig .tc := ⟨.hbm, 67, rfl⟩
abbrev main_c_9 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_cst_10 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_cst_11 : Ref sig .tc := ⟨.hbm, 82, rfl⟩
abbrev main_v63 : Ref sig .tc := ⟨.hbm, 83, rfl⟩
abbrev main_v64 : Ref sig .tc := ⟨.hbm, 84, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg1_1 : Ref sig .tc := ⟨.vmem, 22, rfl⟩
abbrev cc3_stg2_0 : Ref sig .tc := ⟨.vmem, 23, rfl⟩
abbrev cc3_stg2_1 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg4_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc3_sem0_0 : DmaSem sig := 19
abbrev cc3_sem0_1 : DmaSem sig := 20
abbrev cc3_sem1_0 : DmaSem sig := 21
abbrev cc3_sem1_1 : DmaSem sig := 22
abbrev cc3_sem2_0 : DmaSem sig := 23
abbrev cc3_sem2_1 : DmaSem sig := 24
abbrev cc3_sem3_0 : DmaSem sig := 25
abbrev cc3_sem4_0 : DmaSem sig := 26
abbrev cc3_sem4_1 : DmaSem sig := 27

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S2000x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x256 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x40 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x40 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x40 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x40 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S2000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x40 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S2000x40 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S_S20000 : S_.BroadcastsInDim S20000 (![] : Fin 0 → Fin S20000.rank)
  bcast_S640000_S640000x1_0 : S640000.BroadcastsInDim S640000x1 (![0] : Fin 1 → Fin S640000x1.rank)
  shapeCasts_S20000_S20000x1 : S20000.ShapeCasts S20000x1
  shapeCasts_S640000_S640000x1 : S640000.ShapeCasts S640000x1
  bitsLt_bf16_f32 : FTy.bits .bf16 < FTy.bits .f32
  inb_S2000x512_S2000x512_0_0 : ∀ a, (![0, 0] : Fin 2 → Nat) a + S2000x512.size a ≤ S2000x512.size a
  h_S2000x512 : 0 < S2000x512.numel
  shapeCasts_S2000x512_S2000x512 : S2000x512.ShapeCasts S2000x512
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S2000x256_S2000x256_0_0 : ∀ a, (![0, 0] : Fin 2 → Nat) a + S2000x256.size a ≤ S2000x256.size a
  h_S2000x256 : 0 < S2000x256.numel
  bcast_S640000x1_S640000x256_0_1 : S640000x1.BroadcastsInDim S640000x256 (![0, 1] : Fin 2 → Fin S640000x256.rank)
  bcast_S_S20000x256 : S_.BroadcastsInDim S20000x256 (![] : Fin 0 → Fin S20000x256.rank)
  shapeCasts_S256_S1x256 : S256.ShapeCasts S1x256
  shapeCasts_S2000x256_S2000x256 : S2000x256.ShapeCasts S2000x256
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x256 : S2000x1.Broadcasts S2000x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S256x40_S256x40_0_0 : ∀ a, (![0, 0] : Fin 2 → Nat) a + S256x40.size a ≤ S256x40.size a
  h_S256x40 : 0 < S256x40.numel
  shapeCasts_S256x40_S256x40 : S256x40.ShapeCasts S256x40
  inb_S2000x40_S2000x40_0_0 : ∀ a, (![0, 0] : Fin 2 → Nat) a + S2000x40.size a ≤ S2000x40.size a
  h_S2000x40 : 0 < S2000x40.numel
  bcast_S640000x1_S640000x40_0_1 : S640000x1.BroadcastsInDim S640000x40 (![0, 1] : Fin 2 → Fin S640000x40.rank)
  bcast_S_S20000x40 : S_.BroadcastsInDim S20000x40 (![] : Fin 0 → Fin S20000x40.rank)
  shapeCasts_S40_S1x40 : S40.ShapeCasts S1x40
  shapeCasts_S2000x40_S2000x40 : S2000x40.ShapeCasts S2000x40
  broadcasts_S2000x1_S2000x40 : S2000x1.Broadcasts S2000x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S2000x40 : S1x40.Broadcasts S2000x40
  scatter_S20000_S640000x1_S640000_n_0_0_1_wf : ScatterDims.WF S20000 S640000x1 S640000 [] [0] [0] 1
  gather_S20000_S640000x1_S640000_n_0_n_n_0_1_1_wf : GatherDims.WF S20000 S640000x1 S640000 [] [0] [] [0] [] 1 ![1]
  dot_S2000x512_S512x256_S2000x256_1_0_0_1_n_n_wf : DotDims.WF S2000x512 S512x256 S2000x256 [1] [0] [0] [1] [] []
  gather_S20000x256_S640000x1_S640000x256_1_0_n_n_0_1_1256_wf : GatherDims.WF S20000x256 S640000x1 S640000x256 [1] [0] [] [0] [] 1 ![1, 256]
  scatter_S20000x256_S640000x1_S640000x256_1_0_0_1_wf : ScatterDims.WF S20000x256 S640000x1 S640000x256 [1] [0] [0] 1
  dot_S2000x256_S256x40_S2000x40_1_0_0_1_n_n_wf : DotDims.WF S2000x256 S256x40 S2000x40 [1] [0] [0] [1] [] []
  gather_S20000x40_S640000x1_S640000x40_1_0_n_n_0_1_140_wf : GatherDims.WF S20000x40 S640000x1 S640000x40 [1] [0] [] [0] [] 1 ![1, 40]
  scatter_S20000x40_S640000x1_S640000x40_1_0_0_1_wf : ScatterDims.WF S20000x40 S640000x1 S640000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S20000x512.size a
  hwx0_0 : ∀ i : grid0.Coords, EltTy.bits .bf16 = 32 ∨ (Rect.block (s := S20000x512) S2000x512.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S512x256.size a
  hwx0_1 : ∀ i : grid0.Coords, EltTy.bits .bf16 = 32 ∨ (Rect.block (s := S512x256) S512x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x256.size a ≤ S20000x256.size a
  hwx0_2 : ∀ i : grid0.Coords, EltTy.bits .f32 = 32 ∨ (Rect.block (s := S20000x256) S2000x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S20000x256.size a
  hwx1_0 : ∀ i : grid1.Coords, EltTy.bits .f32 = 32 ∨ (Rect.block (s := S20000x256) S2000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x256.size a ≤ S20000x256.size a
  hwx1_1 : ∀ i : grid1.Coords, EltTy.bits .f32 = 32 ∨ (Rect.block (s := S20000x256) S2000x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x1.size a ≤ S20000x1.size a
  hwx1_2 : ∀ i : grid1.Coords, EltTy.bits .f32 = 32 ∨ (Rect.block (s := S20000x1) S2000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x256.size a ≤ S1x256.size a
  hwx1_3 : ∀ i : grid1.Coords, EltTy.bits .f32 = 32 ∨ (Rect.block (s := S1x256) S1x256.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x256.size a ≤ S20000x256.size a
  hwx1_4 : ∀ i : grid1.Coords, EltTy.bits .f32 = 32 ∨ (Rect.block (s := S20000x256) S2000x256.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S20000x256.size a
  hwx2_0 : ∀ i : grid2.Coords, EltTy.bits .bf16 = 32 ∨ (Rect.block (s := S20000x256) S2000x256.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x40.size a ≤ S256x40.size a
  hwx2_1 : ∀ i : grid2.Coords, EltTy.bits .bf16 = 32 ∨ (Rect.block (s := S256x40) S256x40.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x40.size a ≤ S20000x40.size a
  hwx2_2 : ∀ i : grid2.Coords, EltTy.bits .f32 = 32 ∨ (Rect.block (s := S20000x40) S2000x40.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x40.size a ≤ S20000x40.size a
  hwx3_0 : ∀ i : grid3.Coords, EltTy.bits .f32 = 32 ∨ (Rect.block (s := S20000x40) S2000x40.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x40.size a ≤ S20000x40.size a
  hwx3_1 : ∀ i : grid3.Coords, EltTy.bits .f32 = 32 ∨ (Rect.block (s := S20000x40) S2000x40.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x1.size a ≤ S20000x1.size a
  hwx3_2 : ∀ i : grid3.Coords, EltTy.bits .f32 = 32 ∨ (Rect.block (s := S20000x1) S2000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x40.size a ≤ S1x40.size a
  hwx3_3 : ∀ i : grid3.Coords, EltTy.bits .f32 = 32 ∨ (Rect.block (s := S1x40) S1x40.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S2000x40.size a ≤ S20000x40.size a
  hwx3_4 : ∀ i : grid3.Coords, EltTy.bits .f32 = 32 ∨ (Rect.block (s := S20000x40) S2000x40.size (cc3_transform_4 i) (hinb3_4 i)).WholeWords (EltTy.packing .f32)

variable [Facts₀]

def scatter_S20000_S640000x1_S640000_n_0_0_1 : ScatterDims S20000 S640000x1 S640000 where
  updateWindowDims := []
  insertedWindowDims := [0]
  scatterDimsToOperandDims := [0]
  indexVectorDim := 1
  wf := scatter_S20000_S640000x1_S640000_n_0_0_1_wf
def gather_S20000_S640000x1_S640000_n_0_n_n_0_1_1 : GatherDims S20000 S640000x1 S640000 where
  offsetDims := []
  collapsedSliceDims := [0]
  operandBatchingDims := []
  startIndicesBatchingDims := []
  startIndexMap := [0]
  indexVectorDim := 1
  sliceSizes := ![1]
  wf := gather_S20000_S640000x1_S640000_n_0_n_n_0_1_1_wf
def dot_S2000x512_S512x256_S2000x256_1_0_0_1_n_n : DotDims S2000x512 S512x256 S2000x256 where
  lhsContracting := [1]
  rhsContracting := [0]
  lhsNonContracting := [0]
  rhsNonContracting := [1]
  lhsBatch := []
  rhsBatch := []
  wf := dot_S2000x512_S512x256_S2000x256_1_0_0_1_n_n_wf
def gather_S20000x256_S640000x1_S640000x256_1_0_n_n_0_1_1256 : GatherDims S20000x256 S640000x1 S640000x256 where
  offsetDims := [1]
  collapsedSliceDims := [0]
  operandBatchingDims := []
  startIndicesBatchingDims := []
  startIndexMap := [0]
  indexVectorDim := 1
  sliceSizes := ![1, 256]
  wf := gather_S20000x256_S640000x1_S640000x256_1_0_n_n_0_1_1256_wf
def scatter_S20000x256_S640000x1_S640000x256_1_0_0_1 : ScatterDims S20000x256 S640000x1 S640000x256 where
  updateWindowDims := [1]
  insertedWindowDims := [0]
  scatterDimsToOperandDims := [0]
  indexVectorDim := 1
  wf := scatter_S20000x256_S640000x1_S640000x256_1_0_0_1_wf
def dot_S2000x256_S256x40_S2000x40_1_0_0_1_n_n : DotDims S2000x256 S256x40 S2000x40 where
  lhsContracting := [1]
  rhsContracting := [0]
  lhsNonContracting := [0]
  rhsNonContracting := [1]
  lhsBatch := []
  rhsBatch := []
  wf := dot_S2000x256_S256x40_S2000x40_1_0_0_1_n_n_wf
def gather_S20000x40_S640000x1_S640000x40_1_0_n_n_0_1_140 : GatherDims S20000x40 S640000x1 S640000x40 where
  offsetDims := [1]
  collapsedSliceDims := [0]
  operandBatchingDims := []
  startIndicesBatchingDims := []
  startIndexMap := [0]
  indexVectorDim := 1
  sliceSizes := ![1, 40]
  wf := gather_S20000x40_S640000x1_S640000x40_1_0_n_n_0_1_140_wf
def scatter_S20000x40_S640000x1_S640000x40_1_0_0_1 : ScatterDims S20000x40 S640000x1 S640000x40 where
  updateWindowDims := [1]
  insertedWindowDims := [0]
  scatterDimsToOperandDims := [0]
  indexVectorDim := 1
  wf := scatter_S20000x40_S640000x1_S640000x40_1_0_0_1_wf

abbrev win0_0 : Pipeline.Window sig grid0 :=
  Pipeline.Window.ofSpec (Memref.whole main_v29) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v30) S512x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v31) S2000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v31) S2000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v12) S2000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v44) S1x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v45) S2000x256.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v46) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v47) S256x40.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v48) S2000x40.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v60) S2000x40.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v48) S2000x40.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v12) S2000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v61) S1x40.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v62) S2000x40.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

class Facts : Prop extends Facts₀ where

variable [Facts]
-- ==== ReferenceIdeal.lean ====
abbrev S20000x512 : Shape := ⟨2, ![20000, 512]⟩
abbrev S2x640000 : Shape := ⟨2, ![2, 640000]⟩
abbrev S512x256 : Shape := ⟨2, ![512, 256]⟩
abbrev S256 : Shape := ⟨1, ![256]⟩
abbrev S256x40 : Shape := ⟨2, ![256, 40]⟩
abbrev S40 : Shape := ⟨1, ![40]⟩
abbrev S1x640000 : Shape := ⟨2, ![1, 640000]⟩
abbrev S640000 : Shape := ⟨1, ![640000]⟩
abbrev S_ : Shape := ⟨0, ![]⟩
abbrev S20000 : Shape := ⟨1, ![20000]⟩
abbrev S640000x1 : Shape := ⟨2, ![640000, 1]⟩
abbrev S20000x256 : Shape := ⟨2, ![20000, 256]⟩
abbrev S640000x256 : Shape := ⟨2, ![640000, 256]⟩
abbrev S20000x1 : Shape := ⟨2, ![20000, 1]⟩
abbrev S1x256 : Shape := ⟨2, ![1, 256]⟩
abbrev S20000x40 : Shape := ⟨2, ![20000, 40]⟩
abbrev S640000x40 : Shape := ⟨2, ![640000, 40]⟩
abbrev S1x40 : Shape := ⟨2, ![1, 40]⟩

abbrev nBuf : Space → Nat
  | .hbm => 114
  | .vmem => 0
  | .smem => 0
  | _ => 0

abbrev bufTy : (tb : Table) → Fin (tcTables nBuf tb) → BufTy
  | .hbm, ⟨0, _⟩ => ⟨S20000x512, .f32⟩
  | .hbm, ⟨1, _⟩ => ⟨S2x640000, .i32⟩
  | .hbm, ⟨2, _⟩ => ⟨S512x256, .f32⟩
  | .hbm, ⟨3, _⟩ => ⟨S256, .f32⟩
  | .hbm, ⟨4, _⟩ => ⟨S256x40, .f32⟩
  | .hbm, ⟨5, _⟩ => ⟨S40, .f32⟩
  | .hbm, ⟨6, _⟩ => ⟨S1x640000, .i32⟩
  | .hbm, ⟨7, _⟩ => ⟨S640000, .i32⟩
  | .hbm, ⟨8, _⟩ => ⟨S1x640000, .i32⟩
  | .hbm, ⟨9, _⟩ => ⟨S640000, .i32⟩
  | .hbm, ⟨10, _⟩ => ⟨S_, .f32⟩
  | .hbm, ⟨11, _⟩ => ⟨S640000, .f32⟩
  | .hbm, ⟨12, _⟩ => ⟨S_, .f32⟩
  | .hbm, ⟨13, _⟩ => ⟨S20000, .f32⟩
  | .hbm, ⟨14, _⟩ => ⟨S640000x1, .i32⟩
  | .hbm, ⟨15, _⟩ => ⟨S20000, .f32⟩
  | .hbm, ⟨16, _⟩ => ⟨S_, .f32⟩
  | .hbm, ⟨17, _⟩ => ⟨S20000, .f32⟩
  | .hbm, ⟨18, _⟩ => ⟨S20000, .f32⟩
  | .hbm, ⟨19, _⟩ => ⟨S20000, .f32⟩
  | .hbm, ⟨20, _⟩ => ⟨S20000x256, .f32⟩
  | .hbm, ⟨21, _⟩ => ⟨S_, .i32⟩
  | .hbm, ⟨22, _⟩ => ⟨S640000, .i32⟩
  | .hbm, ⟨23, _⟩ => ⟨S640000, .i1⟩
  | .hbm, ⟨24, _⟩ => ⟨S_, .i32⟩
  | .hbm, ⟨25, _⟩ => ⟨S640000, .i32⟩
  | .hbm, ⟨26, _⟩ => ⟨S640000, .i32⟩
  | .hbm, ⟨27, _⟩ => ⟨S640000, .i32⟩
  | .hbm, ⟨28, _⟩ => ⟨S640000x1, .i32⟩
  | .hbm, ⟨29, _⟩ => ⟨S640000, .f32⟩
  | .hbm, ⟨30, _⟩ => ⟨S_, .i32⟩
  | .hbm, ⟨31, _⟩ => ⟨S640000, .i32⟩
  | .hbm, ⟨32, _⟩ => ⟨S640000, .i1⟩
  | .hbm, ⟨33, _⟩ => ⟨S_, .i32⟩
  | .hbm, ⟨34, _⟩ => ⟨S640000, .i32⟩
  | .hbm, ⟨35, _⟩ => ⟨S640000, .i32⟩
  | .hbm, ⟨36, _⟩ => ⟨S640000, .i32⟩
  | .hbm, ⟨37, _⟩ => ⟨S640000x1, .i32⟩
  | .hbm, ⟨38, _⟩ => ⟨S640000, .f32⟩
  | .hbm, ⟨39, _⟩ => ⟨S640000, .f32⟩
  | .hbm, ⟨40, _⟩ => ⟨S_, .i32⟩
  | .hbm, ⟨41, _⟩ => ⟨S640000, .i32⟩
  | .hbm, ⟨42, _⟩ => ⟨S640000, .i1⟩
  | .hbm, ⟨43, _⟩ => ⟨S_, .i32⟩
  | .hbm, ⟨44, _⟩ => ⟨S640000, .i32⟩
  | .hbm, ⟨45, _⟩ => ⟨S640000, .i32⟩
  | .hbm, ⟨46, _⟩ => ⟨S640000, .i32⟩
  | .hbm, ⟨47, _⟩ => ⟨S640000x1, .i32⟩
  | .hbm, ⟨48, _⟩ => ⟨S640000x256, .f32⟩
  | .hbm, ⟨49, _⟩ => ⟨S640000x1, .f32⟩
  | .hbm, ⟨50, _⟩ => ⟨S640000x256, .f32⟩
  | .hbm, ⟨51, _⟩ => ⟨S640000x256, .f32⟩
  | .hbm, ⟨52, _⟩ => ⟨S_, .f32⟩
  | .hbm, ⟨53, _⟩ => ⟨S20000x256, .f32⟩
  | .hbm, ⟨54, _⟩ => ⟨S640000x1, .i32⟩
  | .hbm, ⟨55, _⟩ => ⟨S20000x256, .f32⟩
  | .hbm, ⟨56, _⟩ => ⟨S20000, .f32⟩
  | .hbm, ⟨57, _⟩ => ⟨S20000x1, .f32⟩
  | .hbm, ⟨58, _⟩ => ⟨S20000x256, .f32⟩
  | .hbm, ⟨59, _⟩ => ⟨S20000x256, .f32⟩
  | .hbm, ⟨60, _⟩ => ⟨S20000x256, .f32⟩
  | .hbm, ⟨61, _⟩ => ⟨S1x256, .f32⟩
  | .hbm, ⟨62, _⟩ => ⟨S20000x256, .f32⟩
  | .hbm, ⟨63, _⟩ => ⟨S20000x256, .f32⟩
  | .hbm, ⟨64, _⟩ => ⟨S_, .f32⟩
  | .hbm, ⟨65, _⟩ => ⟨S20000x256, .f32⟩
  | .hbm, ⟨66, _⟩ => ⟨S20000x256, .f32⟩
  | .hbm, ⟨67, _⟩ => ⟨S20000x40, .f32⟩
  | .hbm, ⟨68, _⟩ => ⟨S_, .i32⟩
  | .hbm, ⟨69, _⟩ => ⟨S640000, .i32⟩
  | .hbm, ⟨70, _⟩ => ⟨S640000, .i1⟩
  | .hbm, ⟨71, _⟩ => ⟨S_, .i32⟩
  | .hbm, ⟨72, _⟩ => ⟨S640000, .i32⟩
  | .hbm, ⟨73, _⟩ => ⟨S640000, .i32⟩
  | .hbm, ⟨74, _⟩ => ⟨S640000, .i32⟩
  | .hbm, ⟨75, _⟩ => ⟨S640000x1, .i32⟩
  | .hbm, ⟨76, _⟩ => ⟨S640000, .f32⟩
  | .hbm, ⟨77, _⟩ => ⟨S_, .i32⟩
  | .hbm, ⟨78, _⟩ => ⟨S640000, .i32⟩
  | .hbm, ⟨79, _⟩ => ⟨S640000, .i1⟩
  | .hbm, ⟨80, _⟩ => ⟨S_, .i32⟩
  | .hbm, ⟨81, _⟩ => ⟨S640000, .i32⟩
  | .hbm, ⟨82, _⟩ => ⟨S640000, .i32⟩
  | .hbm, ⟨83, _⟩ => ⟨S640000, .i32⟩
  | .hbm, ⟨84, _⟩ => ⟨S640000x1, .i32⟩
  | .hbm, ⟨85, _⟩ => ⟨S640000, .f32⟩
  | .hbm, ⟨86, _⟩ => ⟨S640000, .f32⟩
  | .hbm, ⟨87, _⟩ => ⟨S_, .i32⟩
  | .hbm, ⟨88, _⟩ => ⟨S640000, .i32⟩
  | .hbm, ⟨89, _⟩ => ⟨S640000, .i1⟩
  | .hbm, ⟨90, _⟩ => ⟨S_, .i32⟩
  | .hbm, ⟨91, _⟩ => ⟨S640000, .i32⟩
  | .hbm, ⟨92, _⟩ => ⟨S640000, .i32⟩
  | .hbm, ⟨93, _⟩ => ⟨S640000, .i32⟩
  | .hbm, ⟨94, _⟩ => ⟨S640000x1, .i32⟩
  | .hbm, ⟨95, _⟩ => ⟨S640000x40, .f32⟩
  | .hbm, ⟨96, _⟩ => ⟨S640000x1, .f32⟩
  | .hbm, ⟨97, _⟩ => ⟨S640000x40, .f32⟩
  | .hbm, ⟨98, _⟩ => ⟨S640000x40, .f32⟩
  | .hbm, ⟨99, _⟩ => ⟨S_, .f32⟩
  | .hbm, ⟨100, _⟩ => ⟨S20000x40, .f32⟩
  | .hbm, ⟨101, _⟩ => ⟨S640000x1, .i32⟩
  | .hbm, ⟨102, _⟩ => ⟨S20000x40, .f32⟩
  | .hbm, ⟨103, _⟩ => ⟨S20000, .f32⟩
  | .hbm, ⟨104, _⟩ => ⟨S20000x1, .f32⟩
  | .hbm, ⟨105, _⟩ => ⟨S20000x40, .f32⟩
  | .hbm, ⟨106, _⟩ => ⟨S20000x40, .f32⟩
  | .hbm, ⟨107, _⟩ => ⟨S20000x40, .f32⟩
  | .hbm, ⟨108, _⟩ => ⟨S1x40, .f32⟩
  | .hbm, ⟨109, _⟩ => ⟨S20000x40, .f32⟩
  | .hbm, ⟨110, _⟩ => ⟨S20000x40, .f32⟩
  | .hbm, ⟨111, _⟩ => ⟨S_, .f32⟩
  | .hbm, ⟨112, _⟩ => ⟨S20000x40, .f32⟩
  | .hbm, ⟨113, _⟩ => ⟨S20000x40, .f32⟩
  | _, _ => ⟨S20000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_c : Ref sig .tc := ⟨.hbm, 21, rfl⟩
abbrev main_v12 : Ref sig .tc := ⟨.hbm, 22, rfl⟩
abbrev main_v13 : Ref sig .tc := ⟨.hbm, 23, rfl⟩
abbrev main_c_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_c_3 : Ref sig .tc := ⟨.hbm, 30, rfl⟩
abbrev main_v19 : Ref sig .tc := ⟨.hbm, 31, rfl⟩
abbrev main_v20 : Ref sig .tc := ⟨.hbm, 32, rfl⟩
abbrev main_c_4 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_c_5 : Ref sig .tc := ⟨.hbm, 40, rfl⟩
abbrev main_v27 : Ref sig .tc := ⟨.hbm, 41, rfl⟩
abbrev main_v28 : Ref sig .tc := ⟨.hbm, 42, rfl⟩
abbrev main_c_6 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_7 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_call0_cst : Ref sig .tc := ⟨.hbm, 64, rfl⟩
abbrev main_call0_v0 : Ref sig .tc := ⟨.hbm, 65, rfl⟩
abbrev main_v48 : Ref sig .tc := ⟨.hbm, 66, rfl⟩
abbrev main_v49 : Ref sig .tc := ⟨.hbm, 67, rfl⟩
abbrev main_c_8 : Ref sig .tc := ⟨.hbm, 68, rfl⟩
abbrev main_v50 : Ref sig .tc := ⟨.hbm, 69, rfl⟩
abbrev main_v51 : Ref sig .tc := ⟨.hbm, 70, rfl⟩
abbrev main_c_9 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_c_10 : Ref sig .tc := ⟨.hbm, 77, rfl⟩
abbrev main_v57 : Ref sig .tc := ⟨.hbm, 78, rfl⟩
abbrev main_v58 : Ref sig .tc := ⟨.hbm, 79, rfl⟩
abbrev main_c_11 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_c_12 : Ref sig .tc := ⟨.hbm, 87, rfl⟩
abbrev main_v65 : Ref sig .tc := ⟨.hbm, 88, rfl⟩
abbrev main_v66 : Ref sig .tc := ⟨.hbm, 89, rfl⟩
abbrev main_c_13 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_cst_14 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_cst_15 : Ref sig .tc := ⟨.hbm, 111, rfl⟩
abbrev main_v86 : Ref sig .tc := ⟨.hbm, 112, rfl⟩
abbrev main_v87 : Ref sig .tc := ⟨.hbm, 113, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S_S20000 : S_.BroadcastsInDim S20000 (![] : Fin 0 → Fin S20000.rank)
  bcast_S640000_S640000x1_0 : S640000.BroadcastsInDim S640000x1 (![0] : Fin 1 → Fin S640000x1.rank)
  bcast_S640000x1_S640000x256_0_1 : S640000x1.BroadcastsInDim S640000x256 (![0, 1] : Fin 2 → Fin S640000x256.rank)
  bcast_S_S20000x256 : S_.BroadcastsInDim S20000x256 (![] : Fin 0 → Fin S20000x256.rank)
  bcast_S20000_S20000x1_0 : S20000.BroadcastsInDim S20000x1 (![0] : Fin 1 → Fin S20000x1.rank)
  bcast_S20000x1_S20000x256_0_1 : S20000x1.BroadcastsInDim S20000x256 (![0, 1] : Fin 2 → Fin S20000x256.rank)
  bcast_S256_S1x256_1 : S256.BroadcastsInDim S1x256 (![1] : Fin 1 → Fin S1x256.rank)
  bcast_S1x256_S20000x256_0_1 : S1x256.BroadcastsInDim S20000x256 (![0, 1] : Fin 2 → Fin S20000x256.rank)
  bcast_S640000x1_S640000x40_0_1 : S640000x1.BroadcastsInDim S640000x40 (![0, 1] : Fin 2 → Fin S640000x40.rank)
  bcast_S_S20000x40 : S_.BroadcastsInDim S20000x40 (![] : Fin 0 → Fin S20000x40.rank)
  bcast_S20000x1_S20000x40_0_1 : S20000x1.BroadcastsInDim S20000x40 (![0, 1] : Fin 2 → Fin S20000x40.rank)
  bcast_S40_S1x40_1 : S40.BroadcastsInDim S1x40 (![1] : Fin 1 → Fin S1x40.rank)
  bcast_S1x40_S20000x40_0_1 : S1x40.BroadcastsInDim S20000x40 (![0, 1] : Fin 2 → Fin S20000x40.rank)
  scatter_S20000_S640000x1_S640000_n_0_0_1_wf : ScatterDims.WF S20000 S640000x1 S640000 [] [0] [0] 1
  dot_S20000x512_S512x256_S20000x256_1_0_0_1_n_n_wf : DotDims.WF S20000x512 S512x256 S20000x256 [1] [0] [0] [1] [] []
  gather_S20000_S640000x1_S640000_n_0_n_n_0_1_1_wf : GatherDims.WF S20000 S640000x1 S640000 [] [0] [] [0] [] 1 ![1]
  gather_S20000x256_S640000x1_S640000x256_1_0_n_n_0_1_1256_wf : GatherDims.WF S20000x256 S640000x1 S640000x256 [1] [0] [] [0] [] 1 ![1, 256]
  scatter_S20000x256_S640000x1_S640000x256_1_0_0_1_wf : ScatterDims.WF S20000x256 S640000x1 S640000x256 [1] [0] [0] 1
  dot_S20000x256_S256x40_S20000x40_1_0_0_1_n_n_wf : DotDims.WF S20000x256 S256x40 S20000x40 [1] [0] [0] [1] [] []
  gather_S20000x40_S640000x1_S640000x40_1_0_n_n_0_1_140_wf : GatherDims.WF S20000x40 S640000x1 S640000x40 [1] [0] [] [0] [] 1 ![1, 40]
  scatter_S20000x40_S640000x1_S640000x40_1_0_0_1_wf : ScatterDims.WF S20000x40 S640000x1 S640000x40 [1] [0] [0] 1

variable [Facts₀]

def scatter_S20000_S640000x1_S640000_n_0_0_1 : ScatterDims S20000 S640000x1 S640000 where
  updateWindowDims := []
  insertedWindowDims := [0]
  scatterDimsToOperandDims := [0]
  indexVectorDim := 1
  wf := scatter_S20000_S640000x1_S640000_n_0_0_1_wf
def dot_S20000x512_S512x256_S20000x256_1_0_0_1_n_n : DotDims S20000x512 S512x256 S20000x256 where
  lhsContracting := [1]
  rhsContracting := [0]
  lhsNonContracting := [0]
  rhsNonContracting := [1]
  lhsBatch := []
  rhsBatch := []
  wf := dot_S20000x512_S512x256_S20000x256_1_0_0_1_n_n_wf
def gather_S20000_S640000x1_S640000_n_0_n_n_0_1_1 : GatherDims S20000 S640000x1 S640000 where
  offsetDims := []
  collapsedSliceDims := [0]
  operandBatchingDims := []
  startIndicesBatchingDims := []
  startIndexMap := [0]
  indexVectorDim := 1
  sliceSizes := ![1]
  wf := gather_S20000_S640000x1_S640000_n_0_n_n_0_1_1_wf
def gather_S20000x256_S640000x1_S640000x256_1_0_n_n_0_1_1256 : GatherDims S20000x256 S640000x1 S640000x256 where
  offsetDims := [1]
  collapsedSliceDims := [0]
  operandBatchingDims := []
  startIndicesBatchingDims := []
  startIndexMap := [0]
  indexVectorDim := 1
  sliceSizes := ![1, 256]
  wf := gather_S20000x256_S640000x1_S640000x256_1_0_n_n_0_1_1256_wf
def scatter_S20000x256_S640000x1_S640000x256_1_0_0_1 : ScatterDims S20000x256 S640000x1 S640000x256 where
  updateWindowDims := [1]
  insertedWindowDims := [0]
  scatterDimsToOperandDims := [0]
  indexVectorDim := 1
  wf := scatter_S20000x256_S640000x1_S640000x256_1_0_0_1_wf
def dot_S20000x256_S256x40_S20000x40_1_0_0_1_n_n : DotDims S20000x256 S256x40 S20000x40 where
  lhsContracting := [1]
  rhsContracting := [0]
  lhsNonContracting := [0]
  rhsNonContracting := [1]
  lhsBatch := []
  rhsBatch := []
  wf := dot_S20000x256_S256x40_S20000x40_1_0_0_1_n_n_wf
def gather_S20000x40_S640000x1_S640000x40_1_0_n_n_0_1_140 : GatherDims S20000x40 S640000x1 S640000x40 where
  offsetDims := [1]
  collapsedSliceDims := [0]
  operandBatchingDims := []
  startIndicesBatchingDims := []
  startIndexMap := [0]
  indexVectorDim := 1
  sliceSizes := ![1, 40]
  wf := gather_S20000x40_S640000x1_S640000x40_1_0_n_n_0_1_140_wf
def scatter_S20000x40_S640000x1_S640000x40_1_0_0_1 : ScatterDims S20000x40 S640000x1 S640000x40 where
  updateWindowDims := [1]
  insertedWindowDims := [0]
  scatterDimsToOperandDims := [0]
  indexVectorDim := 1
  wf := scatter_S20000x40_S640000x1_S640000x40_1_0_0_1_wf

class Facts : Prop extends Facts₀ where

variable [Facts]
-- ==== Proof.Spec.lean ====
/-
  The two-layer graph convolution both programs compute, as named pieces over whole arrays.

  With `src`, `dst` the two rows of the edge list, `deg n = 1 + #{e | dst e = n}` and `dinv = deg^(-1/2)`, one layer
  sends a node-feature matrix `h` to

      out n = Σ_{e : dst e = n} dinv (src e) · dinv (dst e) · h (src e)  +  dinv n · dinv n · h n  +  b

  (the edge sum is `agg`, a gather of rows by `src`, a scale by the edge coefficient and a scatter-add by `dst`; the
  middle term is the self loop). The network is `layer₂ (relu (layer₁ (x · W₁)) · W₂)`, divided by the temperature 1.

  The pieces below are generic in the float instance and are built from the very host operations the two
  programs print (the gather, the scatter-add, the index wrap `i < 0 ? i + N : i`), so that neither side has to
  open one of them: `kernelShape` is the network with its two matrix products and its two epilogues left as
  parameters (what the four pipelined regions compute), `referenceShape` is the network as the reference spells it.
-/
import proofs.«141251_j16887811408655_1_alg».proof.KernelIdeal
import proofs.«141251_j16887811408655_1_alg».proof.ReferenceIdeal

noncomputable section

namespace Cert.Gcn

open Idealize.ShloMosaic Cert.ReferenceIdeal Cert.ReferenceIdeal.Facts₀

variable {F : FTy → Type} [FloatOps F] [hK : Cert.KernelIdeal.Facts₀] [hR : Cert.ReferenceIdeal.Facts₀]

/-- Row `0` of the edge list: each edge's source node. -/
def src (ei : (⟨S2x640000, .i32⟩ : BufTy).Contents (Elt F)) : (⟨S640000, .i32⟩ : BufTy).Contents (Elt F) :=
  shapeCast S640000 (extractStridedSlice S1x640000 ![0, 0] ei slices_S2x640000_S1x640000_0_0) shapeCasts_S1x640000_S640000

/-- Row `1` of the edge list: each edge's destination node. -/
def dst (ei : (⟨S2x640000, .i32⟩ : BufTy).Contents (Elt F)) : (⟨S640000, .i32⟩ : BufTy).Contents (Elt F) :=
  shapeCast S640000 (extractStridedSlice S1x640000 ![1, 0] ei slices_S2x640000_S1x640000_1_0) shapeCasts_S1x640000_S640000

/-- A node index as a gather's start index: a negative word counts from the end (`i < 0 ? i + 20000 : i`), kept as a
    column. -/
def wrap (v : (⟨S640000, .i32⟩ : BufTy).Contents (Elt F)) : (⟨S640000x1, .i32⟩ : BufTy).Contents (Elt F) :=
  broadcastInDim S640000x1 ![0] bcast_S640000_S640000x1_0
    (select (cmpi .slt v (broadcastInDim S640000 ![] bcast_S_S640000 (constantI S_ 32 0#32)))
      (addi v (broadcastInDim S640000 ![] bcast_S_S640000 (constantI S_ 32 20000#32))) v)

/-- A node index as a scatter's index column (no wrap: an index outside the array is dropped). -/
def col (v : (⟨S640000, .i32⟩ : BufTy).Contents (Elt F)) : (⟨S640000x1, .i32⟩ : BufTy).Contents (Elt F) :=
  broadcastInDim S640000x1 ![0] bcast_S640000_S640000x1_0 v

/-- `deg^(-1/2)`: the in-degree by a scatter-add of ones over the destinations, plus one for the self loop. -/
def dinv (ei : (⟨S2x640000, .i32⟩ : BufTy).Contents (Elt F)) : (⟨S20000, .f32⟩ : BufTy).Contents (Elt F) :=
  Host.rsqrt (addf
    (Host.scatterAdd scatter_S20000_S640000x1_S640000_n_0_0_1
      (broadcastInDim S20000 ![] bcast_S_S20000 (constant S_ .f32 0x00000000#32)) (col (dst ei))
      (broadcastInDim S640000 ![] bcast_S_S640000 (constant S_ .f32 0x3F800000#32)))
    (broadcastInDim S20000 ![] bcast_S_S20000 (constant S_ .f32 0x3F800000#32)))

/-- The self-loop weight `dinv n · dinv n`. -/
def dinvSq (ei : (⟨S2x640000, .i32⟩ : BufTy).Contents (Elt F)) : (⟨S20000, .f32⟩ : BufTy).Contents (Elt F) :=
  mulf (dinv ei) (dinv ei)

/-- The edge coefficient `dinv (src e) · dinv (dst e)`. -/
def coef (ei : (⟨S2x640000, .i32⟩ : BufTy).Contents (Elt F)) : (⟨S640000, .f32⟩ : BufTy).Contents (Elt F) :=
  mulf (Host.gather gather_S20000_S640000x1_S640000_n_0_n_n_0_1_1 (dinv ei) (wrap (src ei)))
    (Host.gather gather_S20000_S640000x1_S640000_n_0_n_n_0_1_1 (dinv ei) (wrap (dst ei)))

/-- The edge sum over 256 features: rows of `h` gathered by source, scaled by the coefficient column `cc`, added into
    their destination rows. -/
def agg256 (h : (⟨S20000x256, .f32⟩ : BufTy).Contents (Elt F)) (cc : (⟨S640000x1, .f32⟩ : BufTy).Contents (Elt F))
    (ei : (⟨S2x640000, .i32⟩ : BufTy).Contents (Elt F)) : (⟨S20000x256, .f32⟩ : BufTy).Contents (Elt F) :=
  Host.scatterAdd scatter_S20000x256_S640000x1_S640000x256_1_0_0_1
    (broadcastInDim S20000x256 ![] bcast_S_S20000x256 (constant S_ .f32 0x00000000#32)) (col (dst ei))
    (mulf (Host.gather gather_S20000x256_S640000x1_S640000x256_1_0_n_n_0_1_1256 h (wrap (src ei)))
      (broadcastInDim S640000x256 ![0, 1] bcast_S640000x1_S640000x256_0_1 cc))

/-- The edge sum over 40 features. -/
def agg40 (h : (⟨S20000x40, .f32⟩ : BufTy).Contents (Elt F)) (cc : (⟨S640000x1, .f32⟩ : BufTy).Contents (Elt F))
    (ei : (⟨S2x640000, .i32⟩ : BufTy).Contents (Elt F)) : (⟨S20000x40, .f32⟩ : BufTy).Contents (Elt F) :=
  Host.scatterAdd scatter_S20000x40_S640000x1_S640000x40_1_0_0_1
    (broadcastInDim S20000x40 ![] bcast_S_S20000x40 (constant S_ .f32 0x00000000#32)) (col (dst ei))
    (mulf (Host.gather gather_S20000x40_S640000x1_S640000x40_1_0_n_n_0_1_140 h (wrap (src ei)))
      (broadcastInDim S640000x40 ![0, 1] bcast_S640000x1_S640000x40_0_1 cc))

/-- The division by the temperature `1`. -/
def temper (o : (⟨S20000x40, .f32⟩ : BufTy).Contents (Elt F)) : (⟨S20000x40, .f32⟩ : BufTy).Contents (Elt F) :=
  Host.divf o (broadcastInDim S20000x40 ![] bcast_S_S20000x40 (constant S_ .f32 0x3F800000#32))

/-- The network with its two matrix products (`mm₁`, `mm₂`, of operands narrowed to bf16) and its two epilogues
    (`ep₁`, `ep₂`: edge sum, features, self-loop weights as a column, bias as a row) left as parameters; the columns
    and rows are reshapes of the vectors. -/
def kernelShape
    (mm₁ : (⟨S20000x512, .bf16⟩ : BufTy).Contents (Elt F) → (⟨S512x256, .bf16⟩ : BufTy).Contents (Elt F) → (⟨S20000x256, .f32⟩ : BufTy).Contents (Elt F))
    (ep₁ : (⟨S20000x256, .f32⟩ : BufTy).Contents (Elt F) → (⟨S20000x256, .f32⟩ : BufTy).Contents (Elt F) → (⟨S20000x1, .f32⟩ : BufTy).Contents (Elt F)
      → (⟨S1x256, .f32⟩ : BufTy).Contents (Elt F) → (⟨S20000x256, .f32⟩ : BufTy).Contents (Elt F))
    (mm₂ : (⟨S20000x256, .bf16⟩ : BufTy).Contents (Elt F) → (⟨S256x40, .bf16⟩ : BufTy).Contents (Elt F) → (⟨S20000x40, .f32⟩ : BufTy).Contents (Elt F))
    (ep₂ : (⟨S20000x40, .f32⟩ : BufTy).Contents (Elt F) → (⟨S20000x40, .f32⟩ : BufTy).Contents (Elt F) → (⟨S20000x1, .f32⟩ : BufTy).Contents (Elt F)
      → (⟨S1x40, .f32⟩ : BufTy).Contents (Elt F) → (⟨S20000x40, .f32⟩ : BufTy).Contents (Elt F))
    (x : (⟨S20000x512, .f32⟩ : BufTy).Contents (Elt F)) (ei : (⟨S2x640000, .i32⟩ : BufTy).Contents (Elt F))
    (w₁ : (⟨S512x256, .f32⟩ : BufTy).Contents (Elt F)) (b₁ : (⟨S256, .f32⟩ : BufTy).Contents (Elt F))
    (w₂ : (⟨S256x40, .f32⟩ : BufTy).Contents (Elt F)) (b₂ : (⟨S40, .f32⟩ : BufTy).Contents (Elt F)) :
    (⟨S20000x40, .f32⟩ : BufTy).Contents (Elt F) :=
  let cc : (⟨S640000x1, .f32⟩ : BufTy).Contents (Elt F) := shapeCast S640000x1 (coef ei) hK.shapeCasts_S640000_S640000x1
  let dd : (⟨S20000x1, .f32⟩ : BufTy).Contents (Elt F) := shapeCast S20000x1 (dinvSq ei) hK.shapeCasts_S20000_S20000x1
  let h₁ := mm₁ (truncf .bf16 x hK.bitsLt_bf16_f32) (truncf .bf16 w₁ hK.bitsLt_bf16_f32)
  let a₁ := ep₁ (agg256 h₁ cc ei) h₁ dd (shapeCast S1x256 b₁ hK.shapeCasts_S256_S1x256)
  let h₂ := mm₂ (truncf .bf16 a₁ hK.bitsLt_bf16_f32) (truncf .bf16 w₂ hK.bitsLt_bf16_f32)
  temper (ep₂ (agg40 h₂ cc ei) h₂ dd (shapeCast S1x40 b₂ hK.shapeCasts_S40_S1x40))

/-- The reference's layer epilogue over 256 features with its rectifier: edge sum, plus features times the self-loop
    weights broadcast along rows, plus the bias broadcast along columns, then `max · 0`. -/
def refEpilogue256 (a h : (⟨S20000x256, .f32⟩ : BufTy).Contents (Elt F)) (d : (⟨S20000, .f32⟩ : BufTy).Contents (Elt F))
    (b : (⟨S256, .f32⟩ : BufTy).Contents (Elt F)) : (⟨S20000x256, .f32⟩ : BufTy).Contents (Elt F) :=
  maximumf
    (addf (addf a (mulf h (broadcastInDim S20000x256 ![0, 1] bcast_S20000x1_S20000x256_0_1 (broadcastInDim S20000x1 ![0] bcast_S20000_S20000x1_0 d))))
      (broadcastInDim S20000x256 ![0, 1] bcast_S1x256_S20000x256_0_1 (broadcastInDim S1x256 ![1] bcast_S256_S1x256_1 b)))
    (broadcastInDim S20000x256 ![] bcast_S_S20000x256 (constant S_ .f32 0x00000000#32))

/-- The reference's layer epilogue over 40 features (no rectifier). -/
def refEpilogue40 (a h : (⟨S20000x40, .f32⟩ : BufTy).Contents (Elt F)) (d : (⟨S20000, .f32⟩ : BufTy).Contents (Elt F))
    (b : (⟨S40, .f32⟩ : BufTy).Contents (Elt F)) : (⟨S20000x40, .f32⟩ : BufTy).Contents (Elt F) :=
  addf (addf a (mulf h (broadcastInDim S20000x40 ![0, 1] bcast_S20000x1_S20000x40_0_1 (broadcastInDim S20000x1 ![0] bcast_S20000_S20000x1_0 d))))
    (broadcastInDim S20000x40 ![0, 1] bcast_S1x40_S20000x40_0_1 (broadcastInDim S1x40 ![1] bcast_S40_S1x40_1 b))

/-- The network as the reference spells it: whole matrix products on the host, the coefficient column a broadcast. -/
def referenceShape
    (x : (⟨S20000x512, .f32⟩ : BufTy).Contents (Elt F)) (ei : (⟨S2x640000, .i32⟩ : BufTy).Contents (Elt F))
    (w₁ : (⟨S512x256, .f32⟩ : BufTy).Contents (Elt F)) (b₁ : (⟨S256, .f32⟩ : BufTy).Contents (Elt F))
    (w₂ : (⟨S256x40, .f32⟩ : BufTy).Contents (Elt F)) (b₂ : (⟨S40, .f32⟩ : BufTy).Contents (Elt F)) :
    (⟨S20000x40, .f32⟩ : BufTy).Contents (Elt F) :=
  let cc : (⟨S640000x1, .f32⟩ : BufTy).Contents (Elt F) := broadcastInDim S640000x1 ![0] bcast_S640000_S640000x1_0 (coef ei)
  let h₁ := Host.dotGeneral dot_S20000x512_S512x256_S20000x256_1_0_0_1_n_n none x w₁
  let a₁ := refEpilogue256 (agg256 h₁ cc ei) h₁ (dinvSq ei) b₁
  let h₂ := Host.dotGeneral dot_S20000x256_S256x40_S20000x40_1_0_0_1_n_n none a₁ w₂
  temper (refEpilogue40 (agg40 h₂ cc ei) h₂ (dinvSq ei) b₂)

end Cert.Gcn

end
-- ==== Proof.KernelFold.lean ====
/-
  The kernel program's host lines and regions read as one straight line.

  Between the launch and the return the program runs five stretches of host operations with a pipelined region after
  each of the first four. If each region is one more operation — writing its output array from its input arrays by a
  function `mm₁`, `ep₁`, `mm₂`, `ep₂` and touching nothing else — the buffer contents at the end are a fold of
  operation results from the launch contents, and the result buffer holds the network of Spec.lean with those four
  functions in the regions' places. This holds for any float instance and any four functions; which functions the
  regions really compute is a separate matter.
-/
import proofs.«141251_j16887811408655_1_alg».proof.Proof.Gen.KernelIdeal.Launch
import proofs.«141251_j16887811408655_1_alg».proof.Proof.Gen.ReferenceIdeal
import proofs.«141251_j16887811408655_1_alg».proof.Proof.Spec
import Idealize.ShloMosaic.Lib.StableHlo.Run

noncomputable section

namespace Cert.KernelIdeal.Fold

open Idealize.ShloMosaic Idealize.ShloMosaic.StableHlo Idealize.ShloMosaic.TcCoe Cert.KernelIdeal Cert.KernelIdeal.Gen

variable {F : FTy → Type} [FloatOps F]

variable
  (mm₁ : (⟨S20000x512, .bf16⟩ : BufTy).Contents (Elt F) → (⟨S512x256, .bf16⟩ : BufTy).Contents (Elt F) → (⟨S20000x256, .f32⟩ : BufTy).Contents (Elt F))
  (ep₁ : (⟨S20000x256, .f32⟩ : BufTy).Contents (Elt F) → (⟨S20000x256, .f32⟩ : BufTy).Contents (Elt F) → (⟨S20000x1, .f32⟩ : BufTy).Contents (Elt F)
    → (⟨S1x256, .f32⟩ : BufTy).Contents (Elt F) → (⟨S20000x256, .f32⟩ : BufTy).Contents (Elt F))
  (mm₂ : (⟨S20000x256, .bf16⟩ : BufTy).Contents (Elt F) → (⟨S256x40, .bf16⟩ : BufTy).Contents (Elt F) → (⟨S20000x40, .f32⟩ : BufTy).Contents (Elt F))
  (ep₂ : (⟨S20000x40, .f32⟩ : BufTy).Contents (Elt F) → (⟨S20000x40, .f32⟩ : BufTy).Contents (Elt F) → (⟨S20000x1, .f32⟩ : BufTy).Contents (Elt F)
    → (⟨S1x40, .f32⟩ : BufTy).Contents (Elt F) → (⟨S20000x40, .f32⟩ : BufTy).Contents (Elt F))

/-- The first matrix product's region as an operation: the narrowed features and weights in, the product out. -/
abbrev op0 : HloOp τ sig (Elt F) := StableHlo.binary main_v29 main_v30 main_v31 mm₁
/-- The first epilogue's region as an operation: edge sum, features, self-loop column, bias row in. -/
abbrev op1 : HloOp τ sig (Elt F) := StableHlo.quaternary main_v43 main_v31 main_v12 main_v44 main_v45 ep₁
/-- The second matrix product's region as an operation. -/
abbrev op2 : HloOp τ sig (Elt F) := StableHlo.binary main_v46 main_v47 main_v48 mm₂
/-- The second epilogue's region as an operation. -/
abbrev op3 : HloOp τ sig (Elt F) := StableHlo.quaternary main_v60 main_v48 main_v12 main_v61 main_v62 ep₂

/-- The buffer contents after the whole program, from contents `Wa` at the launch, the regions read as operations. -/
def chainEnd (Wa : Valuation τ sig (Elt F)) : Valuation τ sig (Elt F) :=
  after hostOps4 ((op3 ep₂).result (after hostOps3 ((op2 mm₂).result (after hostOps2 ((op1 ep₁).result
    (after hostOps1 ((op0 mm₁).result (after hostOps0 Wa))))))))

set_option maxHeartbeats 4000000 in
set_option maxRecDepth 8192 in
/-- The result buffer then holds the network over the launch contents of the six arguments. -/
theorem chainEnd_result (Wa : Valuation τ sig (Elt F)) :
    chainEnd mm₁ ep₁ mm₂ ep₂ Wa (Proc.devRef .tc main_v64)
      = Cert.Gcn.kernelShape mm₁ ep₁ mm₂ ep₂ (Wa (Proc.devRef .tc main_arg0)) (Wa (Proc.devRef .tc main_arg1))
          (Wa (Proc.devRef .tc main_arg2)) (Wa (Proc.devRef .tc main_arg3)) (Wa (Proc.devRef .tc main_arg4))
          (Wa (Proc.devRef .tc main_arg5)) := by
  unfold chainEnd
  after_results_simp
  rfl

end Cert.KernelIdeal.Fold

end
-- ==== Proof.LibRegionOp.lean ====
/-
  A pipelined region with one output array, read as one more line of the host program around it.

  A region's exit contents are its entry contents with the pipeline's arrays replaced by what the pipeline leaves in
  them. When every array but one is left as the region found it, and that one holds the value a host operation
  writing only that array would have computed from the entry contents, the exit contents ARE that operation's
  result on the entry contents. A program of several regions among host lines then reads, buffer by buffer, as one
  straight line of operations.
-/
import Idealize.ShloMosaic.Lib.Pipeline.FrameSuffix

noncomputable section

namespace Cert.RegionOp

open Idealize.ShloMosaic Idealize.ShloMosaic.Pipeline Idealize.ShloMosaic.TcCoe

variable {nD : Nat} {τ : Topo} {sig : RefSig} {Val : EltTy → Type}

/-- The exit contents of a region whose arrays `A` agree with the entry contents `V` except at window `o`'s array,
    where they hold what `op` — an operation writing that array only — computes from `V`: they are `op.result V`,
    at every buffer of the device. -/
theorem withArrays_eq_result {gr W : Nat} (win : Fin W → WinSpec sig gr) (hinj : Function.Injective (arrRef win))
    (c : Dev nD) (V : Valuation τ sig Val) (A : (w : Fin W) → Buf Val ((win w).arr.view.loc (c.tc : Thread nD τ)))
    (o : Fin W) (op : HloOp τ sig Val)
    (hw : op.writes = {Proc.devRef .tc (arrRef win o)})
    (hin : ∀ w, w ≠ o → A w = V (Proc.devRef .tc (arrRef win w)))
    (hout : A o = op.result V (Proc.devRef .tc (arrRef win o))) :
    withArrays win c V A = op.result V := by
  funext b
  by_cases h : ∃ w, Proc.devRef .tc (arrRef win w) = b
  · obtain ⟨w, rfl⟩ := h
    rw [withArrays_arr win hinj c V A w]
    by_cases hwo : w = o
    · subst hwo; exact hout
    · rw [hin w hwo]
      refine (op.result_of_not_mem V ?_).symm
      rw [hw, Finset.mem_singleton]
      exact fun e => hwo (hinj (Proc.devRef_injective _ e))
  · have hb : withArrays win c V A b = V b := by unfold withArrays; rw [dif_neg h]
    rw [hb]
    refine (op.result_of_not_mem V ?_).symm
    rw [hw, Finset.mem_singleton]
    exact fun e => h ⟨o, e.symm⟩

end Cert.RegionOp

end
-- ==== Proof.Values.lean ====
/-
  What the four pipelined regions compute, on the extended reals, as whole-array functions read at an index.

  A matrix product is the sum over the contracted axis of products of entries; a layer's epilogue at entry `(r, c)` is
  the edge sum plus the features times row `r`'s self-loop weight plus column `c`'s bias, and the first layer's is
  that rectified (`max · 0`). The zero is kept as the float word it is printed as: both programs spell the same word.
-/
import Idealize.ShloMosaic.PureOps.Ideal
import Idealize.ShloMosaic.Lib.ValueIdx

noncomputable section

namespace Cert.Gcn

open Idealize.ShloMosaic Idealize.ShloMosaic.ValueIdx

/-- The `M×K` by `K×N` matrix product: entry `(r, c)` is `Σ k, x (r, k) · w (k, c)`. -/
def mm (M K N : Nat) (x : (⟨2, ![M, K]⟩ : Shape).Idx → EReal) (w : (⟨2, ![K, N]⟩ : Shape).Idx → EReal) :
    (⟨2, ![M, N]⟩ : Shape).Idx → EReal :=
  fun j => ∑ k : Fin K, x (ix2 (j 0) k) * w (ix2 k (j 1))

/-- A layer's epilogue: entry `(r, c)` is `a (r, c) + h (r, c) · d (r, 0) + b (0, c)` — the edge sum, the self loop with
    its weight held as a column, the bias held as a row. -/
def epi (M N : Nat) (a h : (⟨2, ![M, N]⟩ : Shape).Idx → EReal) (d : (⟨2, ![M, 1]⟩ : Shape).Idx → EReal)
    (b : (⟨2, ![1, N]⟩ : Shape).Idx → EReal) : (⟨2, ![M, N]⟩ : Shape).Idx → EReal :=
  fun j => a j + h j * d (ix2 (j 0) 0) + b (ix2 0 (j 1))

/-- The rectified epilogue: `max (epi …) 0`, the zero as the float word `0x00000000`. -/
def epiRelu (M N : Nat) (a h : (⟨2, ![M, N]⟩ : Shape).Idx → EReal) (d : (⟨2, ![M, 1]⟩ : Shape).Idx → EReal)
    (b : (⟨2, ![1, N]⟩ : Shape).Idx → EReal) : (⟨2, ![M, N]⟩ : Shape).Idx → EReal :=
  fun j => max (epi M N a h d b j) (Ideal.ofBits .f32 0x00000000#32)

end Cert.Gcn

end
-- ==== Proof.LibPlainDot.lean ====
/-
  A matrix product with plain dimension numbers, read at an index on the extended reals.

  For an `M×K` by `K×N` contraction (left axis 1 against right axis 0, no batch axis) the element at `(r, c)` of
  a matrix-unit product into a zero accumulator, and of the host's `dot_general`, is the sum over `k : Fin K` of
  `l (r, k) * w (k, c)`: the contraction's one-axis index type is re-indexed by its single coordinate.
-/
import Idealize.ShloMosaic.PureOps.Ideal.Laws
import Idealize.ShloMosaic.Lib.ValueIdx

noncomputable section

namespace Cert.PlainDot

open Idealize.ShloMosaic Idealize.ShloMosaic.ValueIdx

/-- The contraction sum of a plain `M×K` by `K×N` product at output index `j`, over `Fin K`. -/
theorem contr_sum (M K N : Nat) (l : (⟨2, ![M, K]⟩ : Shape).Idx → EReal) (w : (⟨2, ![K, N]⟩ : Shape).Idx → EReal)
    (j : (⟨2, ![M, N]⟩ : Shape).Idx) :
    (∑ q : (DotDims.plain M K N).contr.Idx, l ((DotDims.plain M K N).lhsIdx j q) * w ((DotDims.plain M K N).rhsIdx j q))
      = ∑ k : Fin K, l (ix2 (j 0) k) * w (ix2 k (j 1)) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => rfl
      | ⟨1, _⟩ => exact hk)
  have er : (DotDims.plain M K N).rhsIdx j ((contrEquiv1 (DotDims.plain M K N) K rfl rfl).symm k) = ix2 k (j 1) :=
    funext fun a => Fin.ext (by
      match a with
      | ⟨0, _⟩ => exact hk
      | ⟨1, _⟩ => rfl)
  rw [el, er]
  rfl

/-- A matrix-unit product into the zero accumulator, at an index. -/
theorem matmul_zero_apply (M K N : Nat) {φ₁ φ₂ : FTy} (prec : Option ContractPrecision)
    (l : FVec Ideal (⟨2, ![M, K]⟩ : Shape) φ₁) (w : FVec Ideal (⟨2, ![K, N]⟩ : Shape) φ₂) (j : (⟨2, ![M, N]⟩ : Shape).Idx) :
    FloatOps.matmul (DotDims.plain M K N) prec l w (constant (⟨2, ![M, N]⟩ : Shape) .f32 0x00000000#32) j
      = ∑ k : Fin K, l (ix2 (j 0) k) * w (ix2 k (j 1)) :=
  (Ideal.matmul_constant_zero_apply (DotDims.plain M K N) prec l w j).trans (contr_sum M K N l w j)

/-- The host's `dot_general`, at an index. -/
theorem dotGeneral_apply (M K N : Nat) {φ₁ φ₂ : FTy} (prec : Option ContractPrecision) (sched : HostSchedule)
    (l : FVec Ideal (⟨2, ![M, K]⟩ : Shape) φ₁) (w : FVec Ideal (⟨2, ![K, N]⟩ : Shape) φ₂) (j : (⟨2, ![M, N]⟩ : Shape).Idx) :
    FloatOps.dotGeneral (DotDims.plain M K N) prec sched l w j
      = ∑ k : Fin K, l (ix2 (j 0) k) * w (ix2 k (j 1)) :=
  (Ideal.dotGeneral_apply (DotDims.plain M K N) prec sched l w j).trans (contr_sum M K N l w j)

end Cert.PlainDot

end
-- ==== Proof.RegionMatmul.lean ====
import proofs.«141251_j16887811408655_1_alg».proof.Proof.Gen.KernelIdeal.Frame
import proofs.«141251_j16887811408655_1_alg».proof.Proof.Values
import proofs.«141251_j16887811408655_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

noncomputable section
namespace Cert.KernelIdeal.RegionValue
open Idealize.ShloMosaic Idealize.ShloMosaic.TcCoe Idealize.ShloMosaic.ValueIdx Idealize.SL.Sem Cert.KernelIdeal Cert.KernelIdeal.Gen
open Idealize.ShloMosaic.Pipeline (Dat Cfg Window)
variable (V : (c : Dev nD) → (b : Ref sig .tc) → Buf (Elt Ideal) ((c : Thread nD τ).loc b))

/-! ## Rows of a product

A block of rows of a matrix product is the product of that block of rows of the left factor with the whole right
factor: entry `(p, n)` of the block is `Σ k, x (r₀ + p, k) · w (k, n)`, which is entry `(r₀ + p, n)` of the whole product. -/

/-- The zero offsets of a whole block, as a constant function. -/
theorem mmr_hz : (![0, 0] : Fin 2 → Nat) = fun _ => 0 := funext fun a => by fin_cases a <;> rfl

/-- An `Mb×K` by `K×N` product into a zero accumulator, at an entry `j` of the block, is the `M×K` by `K×N` product
    of whole arrays at the entry `i`, when row `j 0` of the block's left factor is row `i 0` of the whole left array and
    column `j 1` of the block's right factor is column `i 1` of the whole right array. -/
theorem mmr_entry (Mb M K N : Nat) (prec : Option ContractPrecision)
    (xb : FVec Ideal (⟨2, ![Mb, K]⟩ : Shape) .bf16) (wb : FVec Ideal (⟨2, ![K, N]⟩ : Shape) .bf16)
    (X : (⟨2, ![M, K]⟩ : Shape).Idx → EReal) (W : (⟨2, ![K, N]⟩ : Shape).Idx → EReal)
    (j : (⟨2, ![Mb, N]⟩ : Shape).Idx) (i : (⟨2, ![M, N]⟩ : Shape).Idx)
    (hx : ∀ k : Fin K, xb (ix2 (j 0) k) = X (ix2 (i 0) k))
    (hw : ∀ k : Fin K, wb (ix2 k (j 1)) = W (ix2 k (i 1))) :
    FloatOps.matmul (DotDims.plain Mb K N) prec xb wb (constant (⟨2, ![Mb, N]⟩ : Shape) .f32 0x00000000#32) j
      = Cert.Gcn.mm M K N X W i :=
  (Cert.PlainDot.matmul_zero_apply Mb K N prec xb wb j).trans
    (Finset.sum_congr rfl fun k _ => by rw [hx k, hw k])

/-! ## Region 0: the `20000×512` features times the `512×256` weight, in row blocks of 2000 -/

/-- The index maps over the ten grid points: the feature block and the output block sit at the same row-block index and at
    column-block 0, the weight is always its one whole block, and the row-block index is at most 9. -/
theorem mmr_idx0 : ∀ t : Fin cfg0.N, win0_0.index t (0 : Fin 2) = win0_2.index t (0 : Fin 2) ∧ win0_0.index t (1 : Fin 2) = 0
    ∧ win0_1.index t (0 : Fin 2) = 0 ∧ win0_1.index t (1 : Fin 2) = 0 ∧ win0_2.index t (1 : Fin 2) = 0 ∧ win0_2.index t (0 : Fin 2) ≤ 9 :=
  (by decide +kernel : ∀ t : Fin grid0.N, _)

/-- Each of the ten row blocks of the output is some grid point's. -/
theorem mmr_onto0 : ∀ q : Fin 10, ∃ t : Fin cfg0.N, win0_2.index t = ![q.val, 0] :=
  (by decide +kernel : ∀ q : Fin 10, ∃ t : Fin grid0.N, win0_2.index t = ![q.val, 0])

/-- The body's value at entry `j` of its `2000×256` block is the whole product at entry `i`, when the block's rows and the
    weight's columns are the whole arrays' at `i`. -/
theorem mmr_pay0 (xb : Vec Ideal S2000x512 .bf16) (wb : Vec Ideal S512x256 .bf16)
    (X : S20000x512.Idx → EReal) (W : S512x256.Idx → EReal) (j : S2000x256.Idx) (i : S20000x256.Idx)
    (hx : ∀ k : Fin 512, xb (ix2 (j 0) k) = X (ix2 (i 0) k))
    (hw : ∀ k : Fin 512, wb (ix2 k (j 1)) = W (ix2 k (i 1))) :
    k0_pay1 (F := Ideal) xb wb j = Cert.Gcn.mm 20000 512 256 X W i := by
  unfold k0_pay1
  rw [shapeCast_self, shapeCast_self]
  exact mmr_entry 2000 20000 512 256 none xb wb X W j i hx hw

/-- What grid point `t` writes back is block `t` of the whole product of the two input arrays: row `p` of the feature
    block is row `2000 · (block index) + p` of the features, and the weight block is the weight. -/
theorem mmr_flushed0 (c : Dev nD) (t : Fin cfg0.N) :
    (dat0 (F := Ideal) V c).flushed 2 t
      = ((cfg0.win 2).blk t).view.read (Elt Ideal) (Cert.Gcn.mm 20000 512 256 (V c main_v29) (V c main_v30)) := by
  show (cfg0.win 2).cut (grid0.coords t) ((dat0 (F := Ideal) V c).after 2 t) = _
  rw [after0_2]
  unfold out0_2
  rw [View.canon_unit_zero mmr_hz]
  simp only [View.ld_unit_zero (S := S2000x512) mmr_hz, View.ld_unit_zero (S := S512x256) mmr_hz]
  funext j
  obtain ⟨e0, e1, e2, e3, e4, e5⟩ := mmr_idx0 t
  refine mmr_pay0 (iblk0 V c 0 t) (iblk0 V c 1 t) (V c main_v29) (V c main_v30)
    ((cfg0.win 2).xinj (grid0.coords t) j) (((cfg0.win 2).blk t).view.emb j) ?_ ?_
  · intro k
    refine congrArg (V c main_v29) (funext fun a => Fin.ext ?_)
    match a with
    | ⟨0, _⟩ => show win0_0.index t (0 : Fin 2) * 2000 + 1 * (j 0).val = win0_2.index t (0 : Fin 2) * 2000 + 1 * (j 0).val; omega
    | ⟨1, _⟩ => show win0_0.index t (1 : Fin 2) * 512 + 1 * k.val = k.val; omega
  · intro k
    refine congrArg (V c main_v30) (funext fun a => Fin.ext ?_)
    match a with
    | ⟨0, _⟩ => show win0_1.index t (0 : Fin 2) * 512 + 1 * k.val = k.val; omega
    | ⟨1, _⟩ => show win0_1.index t (1 : Fin 2) * 256 + 1 * (j 1).val = win0_2.index t (1 : Fin 2) * 256 + 1 * (j 1).val; omega

/-- An entry of the output array is in point `t`'s block iff each coordinate is in the block's range on its axis. -/
theorem mmr_mem0 (t : Fin cfg0.N) (i : S20000x256.Idx) :
    i ∈ ((cfg0.win 2).blk t).view.set ↔ ∀ a : Fin 2, win0_2.index t a * S2000x256.size a ≤ (i a).val
      ∧ (i a).val < win0_2.index t a * S2000x256.size a + S2000x256.size a := by
  show i ∈ ((View.whole main_v31).slice (win0_2.rect t)).set ↔ _
  rw [View.set_slice_whole, Rect.mem_set_unit]
  exact Iff.rfl

/-- Every entry of the output array is in some point's block: row `r` is in row block `r / 2000`. -/
theorem mmr_cover0 (i : S20000x256.Idx) :
    ∃ t : Fin cfg0.N, (cfg0.win 2).flush t = true ∧ i ∈ ((cfg0.win 2).blk t).view.set := by
  have hi0 : (i 0).val < 20000 := (i 0).isLt
  have hi1 : (i 1).val < 256 := (i 1).isLt
  obtain ⟨t, ht⟩ := mmr_onto0 ⟨(i 0).val / 2000, by omega⟩
  have q0 : win0_2.index t (0 : Fin 2) = (i 0).val / 2000 := congrFun ht 0
  have q1 : win0_2.index t (1 : Fin 2) = 0 := congrFun ht 1
  refine ⟨t, flush0_2 t, ?_⟩
  rw [mmr_mem0]
  intro a
  match a with
  | ⟨0, _⟩ => show win0_2.index t (0 : Fin 2) * 2000 ≤ (i 0).val ∧ (i 0).val < win0_2.index t (0 : Fin 2) * 2000 + 2000; omega
  | ⟨1, _⟩ => show win0_2.index t (1 : Fin 2) * 256 ≤ (i 1).val ∧ (i 1).val < win0_2.index t (1 : Fin 2) * 256 + 256; omega

/-! ## Region 2: the `20000×256` hidden features times the `256×40` weight, in row blocks of 2000 -/

/-- The index maps over the ten grid points: the feature block and the output block sit at the same row-block index and at
    column-block 0, the weight is always its one whole block, and the row-block index is at most 9. -/
theorem mmr_idx2 : ∀ t : Fin cfg2.N, win2_0.index t (0 : Fin 2) = win2_2.index t (0 : Fin 2) ∧ win2_0.index t (1 : Fin 2) = 0
    ∧ win2_1.index t (0 : Fin 2) = 0 ∧ win2_1.index t (1 : Fin 2) = 0 ∧ win2_2.index t (1 : Fin 2) = 0 ∧ win2_2.index t (0 : Fin 2) ≤ 9 :=
  (by decide +kernel : ∀ t : Fin grid2.N, _)

/-- Each of the ten row blocks of the output is some grid point's. -/
theorem mmr_onto2 : ∀ q : Fin 10, ∃ t : Fin cfg2.N, win2_2.index t = ![q.val, 0] :=
  (by decide +kernel : ∀ q : Fin 10, ∃ t : Fin grid2.N, win2_2.index t = ![q.val, 0])

/-- The body's value at entry `j` of its `2000×40` block is the whole product at entry `i`, when the block's rows and the
    weight's columns are the whole arrays' at `i`. -/
theorem mmr_pay2 (xb : Vec Ideal S2000x256 .bf16) (wb : Vec Ideal S256x40 .bf16)
    (X : S20000x256.Idx → EReal) (W : S256x40.Idx → EReal) (j : S2000x40.Idx) (i : S20000x40.Idx)
    (hx : ∀ k : Fin 256, xb (ix2 (j 0) k) = X (ix2 (i 0) k))
    (hw : ∀ k : Fin 256, wb (ix2 k (j 1)) = W (ix2 k (i 1))) :
    k2_pay1 (F := Ideal) xb wb j = Cert.Gcn.mm 20000 256 40 X W i := by
  unfold k2_pay1
  rw [shapeCast_self, shapeCast_self]
  exact mmr_entry 2000 20000 256 40 none xb wb X W j i hx hw

/-- What grid point `t` writes back is block `t` of the whole product of the two input arrays: row `p` of the feature
    block is row `2000 · (block index) + p` of the features, and the weight block is the weight. -/
theorem mmr_flushed2 (c : Dev nD) (t : Fin cfg2.N) :
    (dat2 (F := Ideal) V c).flushed 2 t
      = ((cfg2.win 2).blk t).view.read (Elt Ideal) (Cert.Gcn.mm 20000 256 40 (V c main_v46) (V c main_v47)) := by
  show (cfg2.win 2).cut (grid2.coords t) ((dat2 (F := Ideal) V c).after 2 t) = _
  rw [after2_2]
  unfold out2_2
  rw [View.canon_unit_zero mmr_hz]
  simp only [View.ld_unit_zero (S := S2000x256) mmr_hz, View.ld_unit_zero (S := S256x40) mmr_hz]
  funext j
  obtain ⟨e0, e1, e2, e3, e4, e5⟩ := mmr_idx2 t
  refine mmr_pay2 (iblk2 V c 0 t) (iblk2 V c 1 t) (V c main_v46) (V c main_v47)
    ((cfg2.win 2).xinj (grid2.coords t) j) (((cfg2.win 2).blk t).view.emb j) ?_ ?_
  · intro k
    refine congrArg (V c main_v46) (funext fun a => Fin.ext ?_)
    match a with
    | ⟨0, _⟩ => show win2_0.index t (0 : Fin 2) * 2000 + 1 * (j 0).val = win2_2.index t (0 : Fin 2) * 2000 + 1 * (j 0).val; omega
    | ⟨1, _⟩ => show win2_0.index t (1 : Fin 2) * 256 + 1 * k.val = k.val; omega
  · intro k
    refine congrArg (V c main_v47) (funext fun a => Fin.ext ?_)
    match a with
    | ⟨0, _⟩ => show win2_1.index t (0 : Fin 2) * 256 + 1 * k.val = k.val; omega
    | ⟨1, _⟩ => show win2_1.index t (1 : Fin 2) * 40 + 1 * (j 1).val = win2_2.index t (1 : Fin 2) * 40 + 1 * (j 1).val; omega

/-- An entry of the output array is in point `t`'s block iff each coordinate is in the block's range on its axis. -/
theorem mmr_mem2 (t : Fin cfg2.N) (i : S20000x40.Idx) :
    i ∈ ((cfg2.win 2).blk t).view.set ↔ ∀ a : Fin 2, win2_2.index t a * S2000x40.size a ≤ (i a).val
      ∧ (i a).val < win2_2.index t a * S2000x40.size a + S2000x40.size a := by
  show i ∈ ((View.whole main_v48).slice (win2_2.rect t)).set ↔ _
  rw [View.set_slice_whole, Rect.mem_set_unit]
  exact Iff.rfl

/-- Every entry of the output array is in some point's block: row `r` is in row block `r / 2000`. -/
theorem mmr_cover2 (i : S20000x40.Idx) :
    ∃ t : Fin cfg2.N, (cfg2.win 2).flush t = true ∧ i ∈ ((cfg2.win 2).blk t).view.set := by
  have hi0 : (i 0).val < 20000 := (i 0).isLt
  have hi1 : (i 1).val < 40 := (i 1).isLt
  obtain ⟨t, ht⟩ := mmr_onto2 ⟨(i 0).val / 2000, by omega⟩
  have q0 : win2_2.index t (0 : Fin 2) = (i 0).val / 2000 := congrFun ht 0
  have q1 : win2_2.index t (1 : Fin 2) = 0 := congrFun ht 1
  refine ⟨t, flush2_2 t, ?_⟩
  rw [mmr_mem2]
  intro a
  match a with
  | ⟨0, _⟩ => show win2_2.index t (0 : Fin 2) * 2000 ≤ (i 0).val ∧ (i 0).val < win2_2.index t (0 : Fin 2) * 2000 + 2000; omega
  | ⟨1, _⟩ => show win2_2.index t (1 : Fin 2) * 40 ≤ (i 1).val ∧ (i 1).val < win2_2.index t (1 : Fin 2) * 40 + 40; omega

/-! ## The two output arrays -/

/-- Region 0's output array after the run is the whole product of the two input arrays as the region found them. -/
theorem region0 (c : Dev nD) :
    (dat0 (F := Ideal) V c).arrAt 2 cfg0.N = Cert.Gcn.mm 20000 512 256 (V c main_v29) (V c main_v30) :=
  (dat0 (F := Ideal) V c).arrAt_eq_of_cover 2 (Cert.Gcn.mm 20000 512 256 (V c main_v29) (V c main_v30))
    (fun t _ => mmr_flushed0 V c t) mmr_cover0

/-- Region 2's, likewise. -/
theorem region2 (c : Dev nD) :
    (dat2 (F := Ideal) V c).arrAt 2 cfg2.N = Cert.Gcn.mm 20000 256 40 (V c main_v46) (V c main_v47) :=
  (dat2 (F := Ideal) V c).arrAt_eq_of_cover 2 (Cert.Gcn.mm 20000 256 40 (V c main_v46) (V c main_v47))
    (fun t _ => mmr_flushed2 V c t) mmr_cover2

end Cert.KernelIdeal.RegionValue
end
-- ==== Proof.RegionEpilogue.lean ====
import proofs.«141251_j16887811408655_1_alg».proof.Proof.Gen.KernelIdeal.Frame
import proofs.«141251_j16887811408655_1_alg».proof.Proof.Values
import proofs.«141251_j16887811408655_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

noncomputable section
namespace Cert.KernelIdeal.RegionValue
open Idealize.ShloMosaic Idealize.ShloMosaic.TcCoe Idealize.ShloMosaic.ValueIdx Idealize.SL.Sem Cert.KernelIdeal Cert.KernelIdeal.Gen
open Idealize.ShloMosaic.Pipeline (Dat Cfg Window)
variable (V : (c : Dev nD) → (b : Ref sig .tc) → Buf (Elt Ideal) ((c : Thread nD τ).loc b))

/-!
  # What the two epilogue regions leave in their output arrays

  Each epilogue runs over ten grid points. At point `t` it reads rows `2000 t … 2000 t + 1999` of the edge sums, of the
  features and of the self-loop column, and the whole bias row, and writes the same rows of its output: entry `(p, q)` of
  the written block is `a (p, q) + h (p, q) · d (p, 0) + b (0, q)`, in the first layer rectified by `max · 0`. Read at the
  array's row `2000 t + p` that is the whole-array epilogue at that entry, so each written block is the block of one
  whole-array function; the ten blocks tile the 20000 rows (row `r` lies in block `r / 2000`), so the output array ends as
  that function. This holds for any contents of the buffers at the region's entry.
-/

/-! ## The first layer's epilogue: 256 columns, rectified -/

/-- The first layer's epilogue block at an entry. When the four blocks are rows `r0 … r0 + 1999` of the edge sums `A`,
    of the features `H` and of the self-loop column `D`, and the whole bias row `B`, the block computed from them,
    `max (a + h · d + b) 0` with the column spread along each row and the row spread down each column, is at `(p, q)`
    the rectified epilogue of the four arrays at `(r0 + p, q)`. -/
theorem epr_relu_entry (r0 : Nat) (hr0 : r0 + 2000 ≤ 20000)
    (ab hb : Vec Ideal S2000x256 .f32) (db : Vec Ideal S2000x1 .f32) (bb : Vec Ideal S1x256 .f32)
    (A H : (⟨2, ![20000, 256]⟩ : Shape).Idx → EReal) (D : (⟨2, ![20000, 1]⟩ : Shape).Idx → EReal)
    (B : (⟨2, ![1, 256]⟩ : Shape).Idx → EReal)
    (hA : ∀ (p : Fin 2000) (q : Fin 256), ab (ix2 p q) = A (ix2 ⟨r0 + p.val, by omega⟩ q))
    (hH : ∀ (p : Fin 2000) (q : Fin 256), hb (ix2 p q) = H (ix2 ⟨r0 + p.val, by omega⟩ q))
    (hD : ∀ (p : Fin 2000), db (ix2 p 0) = D (ix2 ⟨r0 + p.val, by omega⟩ 0))
    (hB : ∀ q : Fin 256, bb (ix2 0 q) = B (ix2 0 q))
    (j : S2000x256.Idx) :
    k1_pay1 (F := Ideal) ab hb db bb j
      = Cert.Gcn.epiRelu 20000 256 A H D B (ix2 ⟨r0 + (j 0).val, by have := idx2_lt0 j; omega⟩ (j 1)) := by
  unfold k1_pay1
  simp only [shapeCast_self]
  rw [maximumf_apply, addf_apply, addf_apply, mulf_apply, broadcast_apply]
  have ed : broadcastTo S2000x256 db broadcasts_S2000x1_S2000x256 j = db (ix2 (j 0) 0) :=
    broadcastTo_apply db broadcasts_S2000x1_S2000x256 j (ix2 (j 0) 0) fun a => by
      match a with
      | ⟨0, _⟩ => rfl
      | ⟨1, _⟩ => rfl
  have eb : broadcastTo S2000x256 bb broadcasts_S1x256_S2000x256 j = bb (ix2 0 (j 1)) :=
    broadcastTo_apply bb broadcasts_S1x256_S2000x256 j (ix2 0 (j 1)) fun a => by
      match a with
      | ⟨0, _⟩ => rfl
      | ⟨1, _⟩ => rfl
  rw [ed, eb, hD (j 0), hB (j 1)]
  have ea : ab j = A (ix2 ⟨r0 + (j 0).val, by have := idx2_lt0 j; omega⟩ (j 1)) :=
    (congrArg ab (eq_ix2 j)).trans (hA (j 0) (j 1))
  have eh : hb j = H (ix2 ⟨r0 + (j 0).val, by have := idx2_lt0 j; omega⟩ (j 1)) :=
    (congrArg hb (eq_ix2 j)).trans (hH (j 0) (j 1))
  rw [ea, eh]
  rfl

/-- The zero block offset, as the constant function. -/
theorem epr_off_zero : (![0, 0] : Fin 2 → Nat) = fun _ => 0 := funext fun a => by fin_cases a <;> rfl

/-- The first epilogue's index maps, decided over its ten grid points: the three row-block inputs sit at the output's row
    block, the bias row at its one block, every column index is zero, and the row-block index is at most 9. -/
theorem epr_maps1 : ∀ t : Fin cfg1.N,
    win1_0.index t (0 : Fin 2) = win1_4.index t (0 : Fin 2) ∧ win1_0.index t (1 : Fin 2) = 0
    ∧ win1_1.index t (0 : Fin 2) = win1_4.index t (0 : Fin 2) ∧ win1_1.index t (1 : Fin 2) = 0
    ∧ win1_2.index t (0 : Fin 2) = win1_4.index t (0 : Fin 2) ∧ win1_2.index t (1 : Fin 2) = 0
    ∧ win1_3.index t (0 : Fin 2) = 0 ∧ win1_3.index t (1 : Fin 2) = 0
    ∧ win1_4.index t (1 : Fin 2) = 0 ∧ win1_4.index t (0 : Fin 2) ≤ 9 :=
  (by decide +kernel : ∀ t : Fin grid1.N, _)

/-- Every one of the ten row blocks of the first epilogue's output is some grid point's. -/
theorem epr_onto1 : ∀ q : Fin 10, ∃ t : Fin cfg1.N, win1_4.index t = ![q.val, 0] :=
  (by decide +kernel : ∀ q : Fin 10, ∃ t : Fin grid1.N, win1_4.index t = ![q.val, 0])

/-- A whole array read through the output's block at point `t`: entry `(p, q)` is the array's at row
    `2000 · (block index) + p`, column `q`. -/
theorem epr_read_out1 (t : Fin cfg1.N) (G : (⟨2, ![20000, 256]⟩ : Shape).Idx → EReal) (j : S2000x256.Idx)
    (hr : win1_4.index t (0 : Fin 2) * 2000 + (j 0).val < 20000) :
    (((cfg1.win 4).blk t).view.read (Elt Ideal) G : S2000x256.Idx → EReal) j
      = G (ix2 ⟨win1_4.index t (0 : Fin 2) * 2000 + (j 0).val, hr⟩ (j 1)) := by
  obtain ⟨-, -, -, -, -, -, -, -, e8, -⟩ := epr_maps1 t
  show G (((cfg1.win 4).blk t).view.emb j) = _
  refine congrArg G (funext fun a => Fin.ext ?_)
  match a with
  | ⟨0, _⟩ => show win1_4.index t (0 : Fin 2) * 2000 + 1 * (j 0).val = win1_4.index t (0 : Fin 2) * 2000 + (j 0).val; omega
  | ⟨1, _⟩ => show win1_4.index t (1 : Fin 2) * 256 + 1 * (j 1).val = (j 1).val; omega

/-- The edge-sum window's block at point `t` of a whole array: rows of the output's row block, all columns. -/
theorem epr_read_in1_0 (t : Fin cfg1.N) (G : (⟨2, ![20000, 256]⟩ : Shape).Idx → EReal) (p : Fin 2000) (q : Fin 256)
    (hr : win1_4.index t (0 : Fin 2) * 2000 + p.val < 20000) :
    (((cfg1.win 0).blk t).view.read (Elt Ideal) G : S2000x256.Idx → EReal) (ix2 p q)
      = G (ix2 ⟨win1_4.index t (0 : Fin 2) * 2000 + p.val, hr⟩ q) := by
  obtain ⟨e0, e1, -⟩ := epr_maps1 t
  show G (((cfg1.win 0).blk t).view.emb (ix2 p q)) = _
  refine congrArg G (funext fun a => Fin.ext ?_)
  match a with
  | ⟨0, _⟩ => show win1_0.index t (0 : Fin 2) * 2000 + 1 * p.val = win1_4.index t (0 : Fin 2) * 2000 + p.val; omega
  | ⟨1, _⟩ => show win1_0.index t (1 : Fin 2) * 256 + 1 * q.val = q.val; omega

/-- The feature window's block likewise. -/
theorem epr_read_in1_1 (t : Fin cfg1.N) (G : (⟨2, ![20000, 256]⟩ : Shape).Idx → EReal) (p : Fin 2000) (q : Fin 256)
    (hr : win1_4.index t (0 : Fin 2) * 2000 + p.val < 20000) :
    (((cfg1.win 1).blk t).view.read (Elt Ideal) G : S2000x256.Idx → EReal) (ix2 p q)
      = G (ix2 ⟨win1_4.index t (0 : Fin 2) * 2000 + p.val, hr⟩ q) := by
  obtain ⟨-, -, e2, e3, -⟩ := epr_maps1 t
  show G (((cfg1.win 1).blk t).view.emb (ix2 p q)) = _
  refine congrArg G (funext fun a => Fin.ext ?_)
  match a with
  | ⟨0, _⟩ => show win1_1.index t (0 : Fin 2) * 2000 + 1 * p.val = win1_4.index t (0 : Fin 2) * 2000 + p.val; omega
  | ⟨1, _⟩ => show win1_1.index t (1 : Fin 2) * 256 + 1 * q.val = q.val; omega

/-- The self-loop column's block: the same rows of the one column. -/
theorem epr_read_in1_2 (t : Fin cfg1.N) (G : (⟨2, ![20000, 1]⟩ : Shape).Idx → EReal) (p : Fin 2000)
    (hr : win1_4.index t (0 : Fin 2) * 2000 + p.val < 20000) :
    (((cfg1.win 2).blk t).view.read (Elt Ideal) G : S2000x1.Idx → EReal) (ix2 p 0)
      = G (ix2 ⟨win1_4.index t (0 : Fin 2) * 2000 + p.val, hr⟩ 0) := by
  obtain ⟨-, -, -, -, e4, e5, -⟩ := epr_maps1 t
  show G (((cfg1.win 2).blk t).view.emb (ix2 p 0)) = _
  refine congrArg G (funext fun a => Fin.ext ?_)
  match a with
  | ⟨0, _⟩ => show win1_2.index t (0 : Fin 2) * 2000 + 1 * p.val = win1_4.index t (0 : Fin 2) * 2000 + p.val; omega
  | ⟨1, _⟩ => show win1_2.index t (1 : Fin 2) * 1 + 1 * 0 = 0; omega

/-- The bias row's block is the whole row at every point. -/
theorem epr_read_in1_3 (t : Fin cfg1.N) (G : (⟨2, ![1, 256]⟩ : Shape).Idx → EReal) (q : Fin 256) :
    (((cfg1.win 3).blk t).view.read (Elt Ideal) G : S1x256.Idx → EReal) (ix2 0 q) = G (ix2 0 q) := by
  obtain ⟨-, -, -, -, -, -, e6, e7, -⟩ := epr_maps1 t
  show G (((cfg1.win 3).blk t).view.emb (ix2 0 q)) = _
  refine congrArg G (funext fun a => Fin.ext ?_)
  match a with
  | ⟨0, _⟩ => show win1_3.index t (0 : Fin 2) * 1 + 1 * 0 = 0; omega
  | ⟨1, _⟩ => show win1_3.index t (1 : Fin 2) * 256 + 1 * q.val = q.val; omega

/-- What point `t` of the first epilogue writes back is its block of the rectified epilogue of the four input arrays. -/
theorem epr_flushed1 (c : Dev nD) (t : Fin cfg1.N) :
    (dat1 (F := Ideal) V c).flushed 4 t
      = ((cfg1.win 4).blk t).view.read (Elt Ideal)
          (Cert.Gcn.epiRelu 20000 256 (V c main_v43) (V c main_v31) (V c main_v12) (V c main_v44)) := by
  show (cfg1.win 4).cut (grid1.coords t) ((dat1 V c).after 4 t) = _
  rw [after1_4]
  unfold out1_4
  rw [View.canon_unit_zero epr_off_zero]
  simp only [View.ld_unit_zero (S := S2000x256) epr_off_zero, View.ld_unit_zero (S := S2000x1) epr_off_zero,
    View.ld_unit_zero (S := S1x256) epr_off_zero]
  have h9 : win1_4.index t (0 : Fin 2) ≤ 9 := (epr_maps1 t).2.2.2.2.2.2.2.2.2
  funext j
  have hj : (j 0).val < 2000 := idx2_lt0 j
  refine (epr_relu_entry (win1_4.index t (0 : Fin 2) * 2000) (by omega)
    (iblk1 V c 0 t) (iblk1 V c 1 t) (iblk1 V c 2 t) (iblk1 V c 3 t)
    (V c main_v43) (V c main_v31) (V c main_v12) (V c main_v44)
    (fun p q => epr_read_in1_0 t (V c main_v43) p q (by have := p.isLt; omega))
    (fun p q => epr_read_in1_1 t (V c main_v31) p q (by have := p.isLt; omega))
    (fun p => epr_read_in1_2 t (V c main_v12) p (by have := p.isLt; omega))
    (fun q => epr_read_in1_3 t (V c main_v44) q) j).trans ?_
  exact (epr_read_out1 t _ j (by omega)).symm

/-- An index of the first epilogue's output is in point `t`'s block iff each coordinate is in the block's range. -/
theorem epr_mem_out1 (t : Fin cfg1.N) (i : S20000x256.Idx) :
    i ∈ ((cfg1.win 4).blk t).view.set ↔ ∀ a : Fin 2, win1_4.index t a * S2000x256.size a ≤ (i a).val
      ∧ (i a).val < win1_4.index t a * S2000x256.size a + S2000x256.size a := by
  show i ∈ ((View.whole main_v45).slice (win1_4.rect t)).set ↔ _
  rw [View.set_slice_whole, Rect.mem_set_unit]
  exact Iff.rfl

/-- The ten row blocks cover the output: row `r` is in the block of index `r / 2000`, which every point writes back. -/
theorem epr_cover1 (i : S20000x256.Idx) :
    ∃ t : Fin cfg1.N, (cfg1.win 4).flush t = true ∧ i ∈ ((cfg1.win 4).blk t).view.set := by
  have hi0 : (i 0).val < 20000 := idx2_lt0 i
  have hi1 : (i 1).val < 256 := idx2_lt1 i
  obtain ⟨t, ht⟩ := epr_onto1 ⟨(i 0).val / 2000, by omega⟩
  have q0 : win1_4.index t (0 : Fin 2) = (i 0).val / 2000 := congrFun ht 0
  have q1 : win1_4.index t (1 : Fin 2) = 0 := congrFun ht 1
  refine ⟨t, flush1_4 t, ?_⟩
  rw [epr_mem_out1]
  intro a
  match a with
  | ⟨0, _⟩ => show win1_4.index t (0 : Fin 2) * 2000 ≤ (i 0).val ∧ (i 0).val < win1_4.index t (0 : Fin 2) * 2000 + 2000; omega
  | ⟨1, _⟩ => show win1_4.index t (1 : Fin 2) * 256 ≤ (i 1).val ∧ (i 1).val < win1_4.index t (1 : Fin 2) * 256 + 256; omega

/-- Region 1's output array after the run is the rectified epilogue of its four input arrays as the region found them. -/
theorem region1 (c : Dev nD) :
    (dat1 (F := Ideal) V c).arrAt 4 cfg1.N
      = Cert.Gcn.epiRelu 20000 256 (V c main_v43) (V c main_v31) (V c main_v12) (V c main_v44) :=
  (dat1 (F := Ideal) V c).arrAt_eq_of_cover 4
    (Cert.Gcn.epiRelu 20000 256 (V c main_v43) (V c main_v31) (V c main_v12) (V c main_v44))
    (fun t _ => epr_flushed1 V c t) epr_cover1

/-! ## The second layer's epilogue: 40 columns, not rectified -/

/-- The second layer's epilogue block at an entry: the same with 40 columns and no rectification. From rows
    `r0 … r0 + 1999` of the edge sums `A`, of the features `H` and of the self-loop column `D`, and the whole bias row `B`,
    the block `a + h · d + b` is at `(p, q)` the epilogue of the four arrays at `(r0 + p, q)`. -/
theorem epr_plain_entry (r0 : Nat) (hr0 : r0 + 2000 ≤ 20000)
    (ab hb : Vec Ideal S2000x40 .f32) (db : Vec Ideal S2000x1 .f32) (bb : Vec Ideal S1x40 .f32)
    (A H : (⟨2, ![20000, 40]⟩ : Shape).Idx → EReal) (D : (⟨2, ![20000, 1]⟩ : Shape).Idx → EReal)
    (B : (⟨2, ![1, 40]⟩ : Shape).Idx → EReal)
    (hA : ∀ (p : Fin 2000) (q : Fin 40), ab (ix2 p q) = A (ix2 ⟨r0 + p.val, by omega⟩ q))
    (hH : ∀ (p : Fin 2000) (q : Fin 40), hb (ix2 p q) = H (ix2 ⟨r0 + p.val, by omega⟩ q))
    (hD : ∀ (p : Fin 2000), db (ix2 p 0) = D (ix2 ⟨r0 + p.val, by omega⟩ 0))
    (hB : ∀ q : Fin 40, bb (ix2 0 q) = B (ix2 0 q))
    (j : S2000x40.Idx) :
    k3_pay1 (F := Ideal) ab hb db bb j
      = Cert.Gcn.epi 20000 40 A H D B (ix2 ⟨r0 + (j 0).val, by have := idx2_lt0 j; omega⟩ (j 1)) := by
  unfold k3_pay1
  simp only [shapeCast_self]
  rw [addf_apply, addf_apply, mulf_apply]
  have ed : broadcastTo S2000x40 db broadcasts_S2000x1_S2000x40 j = db (ix2 (j 0) 0) :=
    broadcastTo_apply db broadcasts_S2000x1_S2000x40 j (ix2 (j 0) 0) fun a => by
      match a with
      | ⟨0, _⟩ => rfl
      | ⟨1, _⟩ => rfl
  have eb : broadcastTo S2000x40 bb broadcasts_S1x40_S2000x40 j = bb (ix2 0 (j 1)) :=
    broadcastTo_apply bb broadcasts_S1x40_S2000x40 j (ix2 0 (j 1)) fun a => by
      match a with
      | ⟨0, _⟩ => rfl
      | ⟨1, _⟩ => rfl
  rw [ed, eb, hD (j 0), hB (j 1)]
  have ea : ab j = A (ix2 ⟨r0 + (j 0).val, by have := idx2_lt0 j; omega⟩ (j 1)) :=
    (congrArg ab (eq_ix2 j)).trans (hA (j 0) (j 1))
  have eh : hb j = H (ix2 ⟨r0 + (j 0).val, by have := idx2_lt0 j; omega⟩ (j 1)) :=
    (congrArg hb (eq_ix2 j)).trans (hH (j 0) (j 1))
  rw [ea, eh]
  rfl

/-- The second epilogue's index maps, decided over its ten grid points: the three row-block inputs sit at the output's row
    block, the bias row at its one block, every column index is zero, and the row-block index is at most 9. -/
theorem epr_maps3 : ∀ t : Fin cfg3.N,
    win3_0.index t (0 : Fin 2) = win3_4.index t (0 : Fin 2) ∧ win3_0.index t (1 : Fin 2) = 0
    ∧ win3_1.index t (0 : Fin 2) = win3_4.index t (0 : Fin 2) ∧ win3_1.index t (1 : Fin 2) = 0
    ∧ win3_2.index t (0 : Fin 2) = win3_4.index t (0 : Fin 2) ∧ win3_2.index t (1 : Fin 2) = 0
    ∧ win3_3.index t (0 : Fin 2) = 0 ∧ win3_3.index t (1 : Fin 2) = 0
    ∧ win3_4.index t (1 : Fin 2) = 0 ∧ win3_4.index t (0 : Fin 2) ≤ 9 :=
  (by decide +kernel : ∀ t : Fin grid3.N, _)

/-- Every one of the ten row blocks of the second epilogue's output is some grid point's. -/
theorem epr_onto3 : ∀ q : Fin 10, ∃ t : Fin cfg3.N, win3_4.index t = ![q.val, 0] :=
  (by decide +kernel : ∀ q : Fin 10, ∃ t : Fin grid3.N, win3_4.index t = ![q.val, 0])

/-- A whole array read through the output's block at point `t`: entry `(p, q)` is the array's at row
    `2000 · (block index) + p`, column `q`. -/
theorem epr_read_out3 (t : Fin cfg3.N) (G : (⟨2, ![20000, 40]⟩ : Shape).Idx → EReal) (j : S2000x40.Idx)
    (hr : win3_4.index t (0 : Fin 2) * 2000 + (j 0).val < 20000) :
    (((cfg3.win 4).blk t).view.read (Elt Ideal) G : S2000x40.Idx → EReal) j
      = G (ix2 ⟨win3_4.index t (0 : Fin 2) * 2000 + (j 0).val, hr⟩ (j 1)) := by
  obtain ⟨-, -, -, -, -, -, -, -, e8, -⟩ := epr_maps3 t
  show G (((cfg3.win 4).blk t).view.emb j) = _
  refine congrArg G (funext fun a => Fin.ext ?_)
  match a with
  | ⟨0, _⟩ => show win3_4.index t (0 : Fin 2) * 2000 + 1 * (j 0).val = win3_4.index t (0 : Fin 2) * 2000 + (j 0).val; omega
  | ⟨1, _⟩ => show win3_4.index t (1 : Fin 2) * 40 + 1 * (j 1).val = (j 1).val; omega

/-- The edge-sum window's block at point `t` of a whole array: rows of the output's row block, all columns. -/
theorem epr_read_in3_0 (t : Fin cfg3.N) (G : (⟨2, ![20000, 40]⟩ : Shape).Idx → EReal) (p : Fin 2000) (q : Fin 40)
    (hr : win3_4.index t (0 : Fin 2) * 2000 + p.val < 20000) :
    (((cfg3.win 0).blk t).view.read (Elt Ideal) G : S2000x40.Idx → EReal) (ix2 p q)
      = G (ix2 ⟨win3_4.index t (0 : Fin 2) * 2000 + p.val, hr⟩ q) := by
  obtain ⟨e0, e1, -⟩ := epr_maps3 t
  show G (((cfg3.win 0).blk t).view.emb (ix2 p q)) = _
  refine congrArg G (funext fun a => Fin.ext ?_)
  match a with
  | ⟨0, _⟩ => show win3_0.index t (0 : Fin 2) * 2000 + 1 * p.val = win3_4.index t (0 : Fin 2) * 2000 + p.val; omega
  | ⟨1, _⟩ => show win3_0.index t (1 : Fin 2) * 40 + 1 * q.val = q.val; omega

/-- The feature window's block likewise. -/
theorem epr_read_in3_1 (t : Fin cfg3.N) (G : (⟨2, ![20000, 40]⟩ : Shape).Idx → EReal) (p : Fin 2000) (q : Fin 40)
    (hr : win3_4.index t (0 : Fin 2) * 2000 + p.val < 20000) :
    (((cfg3.win 1).blk t).view.read (Elt Ideal) G : S2000x40.Idx → EReal) (ix2 p q)
      = G (ix2 ⟨win3_4.index t (0 : Fin 2) * 2000 + p.val, hr⟩ q) := by
  obtain ⟨-, -, e2, e3, -⟩ := epr_maps3 t
  show G (((cfg3.win 1).blk t).view.emb (ix2 p q)) = _
  refine congrArg G (funext fun a => Fin.ext ?_)
  match a with
  | ⟨0, _⟩ => show win3_1.index t (0 : Fin 2) * 2000 + 1 * p.val = win3_4.index t (0 : Fin 2) * 2000 + p.val; omega
  | ⟨1, _⟩ => show win3_1.index t (1 : Fin 2) * 40 + 1 * q.val = q.val; omega

/-- The self-loop column's block: the same rows of the one column. -/
theorem epr_read_in3_2 (t : Fin cfg3.N) (G : (⟨2, ![20000, 1]⟩ : Shape).Idx → EReal) (p : Fin 2000)
    (hr : win3_4.index t (0 : Fin 2) * 2000 + p.val < 20000) :
    (((cfg3.win 2).blk t).view.read (Elt Ideal) G : S2000x1.Idx → EReal) (ix2 p 0)
      = G (ix2 ⟨win3_4.index t (0 : Fin 2) * 2000 + p.val, hr⟩ 0) := by
  obtain ⟨-, -, -, -, e4, e5, -⟩ := epr_maps3 t
  show G (((cfg3.win 2).blk t).view.emb (ix2 p 0)) = _
  refine congrArg G (funext fun a => Fin.ext ?_)
  match a with
  | ⟨0, _⟩ => show win3_2.index t (0 : Fin 2) * 2000 + 1 * p.val = win3_4.index t (0 : Fin 2) * 2000 + p.val; omega
  | ⟨1, _⟩ => show win3_2.index t (1 : Fin 2) * 1 + 1 * 0 = 0; omega

/-- The bias row's block is the whole row at every point. -/
theorem epr_read_in3_3 (t : Fin cfg3.N) (G : (⟨2, ![1, 40]⟩ : Shape).Idx → EReal) (q : Fin 40) :
    (((cfg3.win 3).blk t).view.read (Elt Ideal) G : S1x40.Idx → EReal) (ix2 0 q) = G (ix2 0 q) := by
  obtain ⟨-, -, -, -, -, -, e6, e7, -⟩ := epr_maps3 t
  show G (((cfg3.win 3).blk t).view.emb (ix2 0 q)) = _
  refine congrArg G (funext fun a => Fin.ext ?_)
  match a with
  | ⟨0, _⟩ => show win3_3.index t (0 : Fin 2) * 1 + 1 * 0 = 0; omega
  | ⟨1, _⟩ => show win3_3.index t (1 : Fin 2) * 40 + 1 * q.val = q.val; omega

/-- What point `t` of the second epilogue writes back is its block of the plain epilogue of the four input arrays. -/
theorem epr_flushed3 (c : Dev nD) (t : Fin cfg3.N) :
    (dat3 (F := Ideal) V c).flushed 4 t
      = ((cfg3.win 4).blk t).view.read (Elt Ideal)
          (Cert.Gcn.epi 20000 40 (V c main_v60) (V c main_v48) (V c main_v12) (V c main_v61)) := by
  show (cfg3.win 4).cut (grid3.coords t) ((dat3 V c).after 4 t) = _
  rw [after3_4]
  unfold out3_4
  rw [View.canon_unit_zero epr_off_zero]
  simp only [View.ld_unit_zero (S := S2000x40) epr_off_zero, View.ld_unit_zero (S := S2000x1) epr_off_zero,
    View.ld_unit_zero (S := S1x40) epr_off_zero]
  have h9 : win3_4.index t (0 : Fin 2) ≤ 9 := (epr_maps3 t).2.2.2.2.2.2.2.2.2
  funext j
  have hj : (j 0).val < 2000 := idx2_lt0 j
  refine (epr_plain_entry (win3_4.index t (0 : Fin 2) * 2000) (by omega)
    (iblk3 V c 0 t) (iblk3 V c 1 t) (iblk3 V c 2 t) (iblk3 V c 3 t)
    (V c main_v60) (V c main_v48) (V c main_v12) (V c main_v61)
    (fun p q => epr_read_in3_0 t (V c main_v60) p q (by have := p.isLt; omega))
    (fun p q => epr_read_in3_1 t (V c main_v48) p q (by have := p.isLt; omega))
    (fun p => epr_read_in3_2 t (V c main_v12) p (by have := p.isLt; omega))
    (fun q => epr_read_in3_3 t (V c main_v61) q) j).trans ?_
  exact (epr_read_out3 t _ j (by omega)).symm

/-- An index of the second epilogue's output is in point `t`'s block iff each coordinate is in the block's range. -/
theorem epr_mem_out3 (t : Fin cfg3.N) (i : S20000x40.Idx) :
    i ∈ ((cfg3.win 4).blk t).view.set ↔ ∀ a : Fin 2, win3_4.index t a * S2000x40.size a ≤ (i a).val
      ∧ (i a).val < win3_4.index t a * S2000x40.size a + S2000x40.size a := by
  show i ∈ ((View.whole main_v62).slice (win3_4.rect t)).set ↔ _
  rw [View.set_slice_whole, Rect.mem_set_unit]
  exact Iff.rfl

/-- The ten row blocks cover the output: row `r` is in the block of index `r / 2000`, which every point writes back. -/
theorem epr_cover3 (i : S20000x40.Idx) :
    ∃ t : Fin cfg3.N, (cfg3.win 4).flush t = true ∧ i ∈ ((cfg3.win 4).blk t).view.set := by
  have hi0 : (i 0).val < 20000 := idx2_lt0 i
  have hi1 : (i 1).val < 40 := idx2_lt1 i
  obtain ⟨t, ht⟩ := epr_onto3 ⟨(i 0).val / 2000, by omega⟩
  have q0 : win3_4.index t (0 : Fin 2) = (i 0).val / 2000 := congrFun ht 0
  have q1 : win3_4.index t (1 : Fin 2) = 0 := congrFun ht 1
  refine ⟨t, flush3_4 t, ?_⟩
  rw [epr_mem_out3]
  intro a
  match a with
  | ⟨0, _⟩ => show win3_4.index t (0 : Fin 2) * 2000 ≤ (i 0).val ∧ (i 0).val < win3_4.index t (0 : Fin 2) * 2000 + 2000; omega
  | ⟨1, _⟩ => show win3_4.index t (1 : Fin 2) * 40 ≤ (i 1).val ∧ (i 1).val < win3_4.index t (1 : Fin 2) * 40 + 40; omega

/-- Region 3's is the plain epilogue of its four. -/
theorem region3 (c : Dev nD) :
    (dat3 (F := Ideal) V c).arrAt 4 cfg3.N
      = Cert.Gcn.epi 20000 40 (V c main_v60) (V c main_v48) (V c main_v12) (V c main_v61) :=
  (dat3 (F := Ideal) V c).arrAt_eq_of_cover 4
    (Cert.Gcn.epi 20000 40 (V c main_v60) (V c main_v48) (V c main_v12) (V c main_v61))
    (fun t _ => epr_flushed3 V c t) epr_cover3

end Cert.KernelIdeal.RegionValue
end
-- ==== Proof.KernelAsOps.lean ====
/-
  Each pipelined region of the kernel program, read as one host operation, and the whole program as one fold.

  A region enters with the buffers at some contents, leaves its input arrays as it found them and its output array at
  the value RegionMatmul.lean / RegionEpilogue.lean compute from the input arrays: that is the result of one operation
  on the entry contents (LibRegionOp.lean). Chaining the five host stretches and the four regions, the buffers at
  the return are `Fold.chainEnd` of the launch contents, with the matrix products and epilogues of Values.lean in the
  regions' places.
-/
import proofs.«141251_j16887811408655_1_alg».proof.Proof.Gen.KernelIdeal.Frame
import proofs.«141251_j16887811408655_1_alg».proof.Proof.KernelFold
import proofs.«141251_j16887811408655_1_alg».proof.Proof.LibRegionOp
import proofs.«141251_j16887811408655_1_alg».proof.Proof.RegionMatmul
import proofs.«141251_j16887811408655_1_alg».proof.Proof.RegionEpilogue

noncomputable section

namespace Cert.KernelIdeal.Fold

open Idealize.ShloMosaic Idealize.ShloMosaic.StableHlo Idealize.ShloMosaic.TcCoe Idealize.SL.Sem
open Cert.KernelIdeal Cert.KernelIdeal.Gen Cert.Gcn

section Exits

variable (Wv : Dev nD → Valuation τ sig (Elt Ideal))

/-- Buffer contents read at the TensorCore's references: the form the regions' proof data take. -/
abbrev atRefs : (c : Dev nD) → (b : Ref sig .tc) → Buf (Elt Ideal) ((c : Thread nD τ).loc b) := fun c b => Wv c b

/-- Region 0's exit contents are its entry contents after the operation `op0`: the input arrays are left as found
    (an input window's array is never written back), the output array holds the region's value. -/
theorem exit0 (c : Dev nD) :
    Pipeline.withArrays spec0 c (Wv c) (fun w => (dat0 (F := Ideal) (atRefs Wv) c).arrAt w cfg0.N)
      = (op0 (F := Ideal) (mm 20000 512 256)).result (Wv c) := by
  refine Cert.RegionOp.withArrays_eq_result spec0 launch0.win.arr_inj c (Wv c) _ 2 _ rfl (fun w hw => ?_) ?_
  · match w, hw with
    | ⟨0, _⟩, _ => exact ((dat0 (F := Ideal) (atRefs Wv) c).arrAt_in 0 rfl cfg0.N).trans (A_eq0 (atRefs Wv) c 0)
    | ⟨1, _⟩, _ => exact ((dat0 (F := Ideal) (atRefs Wv) c).arrAt_in 1 rfl cfg0.N).trans (A_eq0 (atRefs Wv) c 1)
    | ⟨2, _⟩, h => exact absurd rfl h
    | ⟨_ + 3, h⟩, _ => exact absurd h (Nat.not_lt.2 (Nat.le_add_left _ _))
  · exact (RegionValue.region0 (atRefs Wv) c).trans (StableHlo.binary_result main_v29 main_v30 main_v31 (mm 20000 512 256) _ _ _ (Wv c)).symm

/-- Region 1's exit contents are its entry contents after the operation `op1`: the input arrays are left as found
    (an input window's array is never written back), the output array holds the region's value. -/
theorem exit1 (c : Dev nD) :
    Pipeline.withArrays spec1 c (Wv c) (fun w => (dat1 (F := Ideal) (atRefs Wv) c).arrAt w cfg1.N)
      = (op1 (F := Ideal) (epiRelu 20000 256)).result (Wv c) := by
  refine Cert.RegionOp.withArrays_eq_result spec1 launch1.win.arr_inj c (Wv c) _ 4 _ rfl (fun w hw => ?_) ?_
  · match w, hw with
    | ⟨0, _⟩, _ => exact ((dat1 (F := Ideal) (atRefs Wv) c).arrAt_in 0 rfl cfg1.N).trans (A_eq1 (atRefs Wv) c 0)
    | ⟨1, _⟩, _ => exact ((dat1 (F := Ideal) (atRefs Wv) c).arrAt_in 1 rfl cfg1.N).trans (A_eq1 (atRefs Wv) c 1)
    | ⟨2, _⟩, _ => exact ((dat1 (F := Ideal) (atRefs Wv) c).arrAt_in 2 rfl cfg1.N).trans (A_eq1 (atRefs Wv) c 2)
    | ⟨3, _⟩, _ => exact ((dat1 (F := Ideal) (atRefs Wv) c).arrAt_in 3 rfl cfg1.N).trans (A_eq1 (atRefs Wv) c 3)
    | ⟨4, _⟩, h => exact absurd rfl h
    | ⟨_ + 5, h⟩, _ => exact absurd h (Nat.not_lt.2 (Nat.le_add_left _ _))
  · exact (RegionValue.region1 (atRefs Wv) c).trans (StableHlo.quaternary_result main_v43 main_v31 main_v12 main_v44 main_v45 (epiRelu 20000 256) _ _ _ _ _ (Wv c)).symm

/-- Region 2's exit contents are its entry contents after the operation `op2`: the input arrays are left as found
    (an input window's array is never written back), the output array holds the region's value. -/
theorem exit2 (c : Dev nD) :
    Pipeline.withArrays spec2 c (Wv c) (fun w => (dat2 (F := Ideal) (atRefs Wv) c).arrAt w cfg2.N)
      = (op2 (F := Ideal) (mm 20000 256 40)).result (Wv c) := by
  refine Cert.RegionOp.withArrays_eq_result spec2 launch2.win.arr_inj c (Wv c) _ 2 _ rfl (fun w hw => ?_) ?_
  · match w, hw with
    | ⟨0, _⟩, _ => exact ((dat2 (F := Ideal) (atRefs Wv) c).arrAt_in 0 rfl cfg2.N).trans (A_eq2 (atRefs Wv) c 0)
    | ⟨1, _⟩, _ => exact ((dat2 (F := Ideal) (atRefs Wv) c).arrAt_in 1 rfl cfg2.N).trans (A_eq2 (atRefs Wv) c 1)
    | ⟨2, _⟩, h => exact absurd rfl h
    | ⟨_ + 3, h⟩, _ => exact absurd h (Nat.not_lt.2 (Nat.le_add_left _ _))
  · exact (RegionValue.region2 (atRefs Wv) c).trans (StableHlo.binary_result main_v46 main_v47 main_v48 (mm 20000 256 40) _ _ _ (Wv c)).symm

/-- Region 3's exit contents are its entry contents after the operation `op3`: the input arrays are left as found
    (an input window's array is never written back), the output array holds the region's value. -/
theorem exit3 (c : Dev nD) :
    Pipeline.withArrays spec3 c (Wv c) (fun w => (dat3 (F := Ideal) (atRefs Wv) c).arrAt w cfg3.N)
      = (op3 (F := Ideal) (epi 20000 40)).result (Wv c) := by
  refine Cert.RegionOp.withArrays_eq_result spec3 launch3.win.arr_inj c (Wv c) _ 4 _ rfl (fun w hw => ?_) ?_
  · match w, hw with
    | ⟨0, _⟩, _ => exact ((dat3 (F := Ideal) (atRefs Wv) c).arrAt_in 0 rfl cfg3.N).trans (A_eq3 (atRefs Wv) c 0)
    | ⟨1, _⟩, _ => exact ((dat3 (F := Ideal) (atRefs Wv) c).arrAt_in 1 rfl cfg3.N).trans (A_eq3 (atRefs Wv) c 1)
    | ⟨2, _⟩, _ => exact ((dat3 (F := Ideal) (atRefs Wv) c).arrAt_in 2 rfl cfg3.N).trans (A_eq3 (atRefs Wv) c 2)
    | ⟨3, _⟩, _ => exact ((dat3 (F := Ideal) (atRefs Wv) c).arrAt_in 3 rfl cfg3.N).trans (A_eq3 (atRefs Wv) c 3)
    | ⟨4, _⟩, h => exact absurd rfl h
    | ⟨_ + 5, h⟩, _ => exact absurd h (Nat.not_lt.2 (Nat.le_add_left _ _))
  · exact (RegionValue.region3 (atRefs Wv) c).trans (StableHlo.quaternary_result main_v60 main_v48 main_v12 main_v61 main_v62 (epi 20000 40) _ _ _ _ _ (Wv c)).symm

end Exits

section Chain

variable (m : (ℓ : Loc nD τ sig) → Buf (Elt Ideal) ℓ) (ρ : Dev nD → PrngReg)

/-- The buffer contents at the return are the fold of the host stretches and the four region operations from the
    launch contents. -/
theorem W9_eq (c : Dev nD) :
    W9 m ρ c = chainEnd (F := Ideal) (mm 20000 512 256) (epiRelu 20000 256) (mm 20000 256 40) (epi 20000 40) (W0 m ρ c) := by
  have e2 : W2 m ρ c = (op0 (F := Ideal) (mm 20000 512 256)).result (after hostOps0 (W0 m ρ c)) := by
    unfold W2; exact exit0 (W1 m ρ) c
  have e4 : W4 m ρ c = (op1 (F := Ideal) (epiRelu 20000 256)).result (after hostOps1 (W2 m ρ c)) := by
    unfold W4; exact exit1 (W3 m ρ) c
  have e6 : W6 m ρ c = (op2 (F := Ideal) (mm 20000 256 40)).result (after hostOps2 (W4 m ρ c)) := by
    unfold W6; exact exit2 (W5 m ρ) c
  have e8 : W8 m ρ c = (op3 (F := Ideal) (epi 20000 40)).result (after hostOps3 (W6 m ρ c)) := by
    unfold W8; exact exit3 (W7 m ρ) c
  show after hostOps4 (W8 m ρ c) = _
  rw [e8, e6, e4, e2]
  rfl

end Chain

end Cert.KernelIdeal.Fold

end
-- ==== Proof.Bridge.lean ====
import proofs.«141251_j16887811408655_1_alg».proof.Proof.Spec
import proofs.«141251_j16887811408655_1_alg».proof.Proof.Values
import proofs.«141251_j16887811408655_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

noncomputable section
namespace Cert.Gcn
open Idealize.ShloMosaic Idealize.ShloMosaic.ValueIdx Cert.ReferenceIdeal Cert.ReferenceIdeal.Facts₀
variable [hK : Cert.KernelIdeal.Facts₀] [hR : Cert.ReferenceIdeal.Facts₀]

/-! ## Reshapes and broadcasts of vectors, read at an index -/

section Layout
variable {α : Type}

/-- A vector reshaped to a column: the entry at `(r, 0)` is the vector's entry `r` (the two row-major positions are
    `r · 1 + 0` and `r`). -/
theorem brg_reshape_col_apply {M : ℕ} (v : (⟨1, ![M]⟩ : Shape).Idx → α)
    (h : (⟨1, ![M]⟩ : Shape).ShapeCasts ⟨2, ![M, 1]⟩) (j : (⟨2, ![M, 1]⟩ : Shape).Idx) :
    shapeCast ⟨2, ![M, 1]⟩ v h j = v (ix1 (j 0)) :=
  shapeCast_apply v h _ _ (by
    have hu : (j 1).val = 0 := by have := idx2_lt1 j; omega
    rw [Shape.rowMajor_val_two, Shape.rowMajor_val_one]
    show (j 0).val = (j 0).val * 1 + (j 1).val
    rw [hu, Nat.mul_one, Nat.add_zero])

/-- A vector reshaped to a row: the entry at `(0, c)` is the vector's entry `c` (the two row-major positions are
    `0 · N + c` and `c`). -/
theorem brg_reshape_row_apply {N : ℕ} (v : (⟨1, ![N]⟩ : Shape).Idx → α)
    (h : (⟨1, ![N]⟩ : Shape).ShapeCasts ⟨2, ![1, N]⟩) (j : (⟨2, ![1, N]⟩ : Shape).Idx) :
    shapeCast ⟨2, ![1, N]⟩ v h j = v (ix1 (j 1)) :=
  shapeCast_apply v h _ _ (by
    have hu : (j 0).val = 0 := by have := idx2_lt0 j; omega
    rw [Shape.rowMajor_val_two, Shape.rowMajor_val_one]
    show (j 1).val = (j 0).val * N + (j 1).val
    rw [hu, Nat.zero_mul, Nat.zero_add])

/-- A vector broadcast to a column along axis `0`: the entry at `(r, 0)` is the vector's entry `r`. -/
theorem brg_bcast_col_apply {M : ℕ} (v : (⟨1, ![M]⟩ : Shape).Idx → α)
    (h : (⟨1, ![M]⟩ : Shape).BroadcastsInDim ⟨2, ![M, 1]⟩ ![0]) (j : (⟨2, ![M, 1]⟩ : Shape).Idx) :
    broadcastInDim ⟨2, ![M, 1]⟩ ![0] h v j = v (ix1 (j 0)) :=
  broadcastInDim_apply _ h v j _ (fun a => match a with
    | ⟨0, _⟩ => by
      show (j 0).val = if M = 1 then 0 else (j 0).val
      have := idx2_lt0 j
      split <;> omega)

/-- A vector broadcast to a row along axis `1`: the entry at `(0, c)` is the vector's entry `c`. -/
theorem brg_bcast_row_apply {N : ℕ} (v : (⟨1, ![N]⟩ : Shape).Idx → α)
    (h : (⟨1, ![N]⟩ : Shape).BroadcastsInDim ⟨2, ![1, N]⟩ ![1]) (j : (⟨2, ![1, N]⟩ : Shape).Idx) :
    broadcastInDim ⟨2, ![1, N]⟩ ![1] h v j = v (ix1 (j 1)) :=
  broadcastInDim_apply _ h v j _ (fun a => match a with
    | ⟨0, _⟩ => by
      show (j 1).val = if N = 1 then 0 else (j 1).val
      have := idx2_lt1 j
      split <;> omega)

/-- A column broadcast along the rows: the entry at `(r, c)` is the column's entry `(r, 0)`. -/
theorem brg_bcast_cols_apply {M N : ℕ} (d : (⟨2, ![M, 1]⟩ : Shape).Idx → α)
    (h : (⟨2, ![M, 1]⟩ : Shape).BroadcastsInDim ⟨2, ![M, N]⟩ ![0, 1]) (j : (⟨2, ![M, N]⟩ : Shape).Idx) :
    broadcastInDim ⟨2, ![M, N]⟩ ![0, 1] h d j = d (ix2 (j 0) 0) :=
  broadcastInDim_apply _ h d j _ (fun a => match a with
    | ⟨0, _⟩ => by
      show (j 0).val = if M = 1 then 0 else (j 0).val
      have := idx2_lt0 j
      split <;> omega
    | ⟨1, _⟩ => by
      show 0 = if (1 : ℕ) = 1 then 0 else (j 1).val
      rw [if_pos rfl])

/-- A row broadcast down the columns: the entry at `(r, c)` is the row's entry `(0, c)`. -/
theorem brg_bcast_rows_apply {M N : ℕ} (b : (⟨2, ![1, N]⟩ : Shape).Idx → α)
    (h : (⟨2, ![1, N]⟩ : Shape).BroadcastsInDim ⟨2, ![M, N]⟩ ![0, 1]) (j : (⟨2, ![M, N]⟩ : Shape).Idx) :
    broadcastInDim ⟨2, ![M, N]⟩ ![0, 1] h b j = b (ix2 0 (j 1)) :=
  broadcastInDim_apply _ h b j _ (fun a => match a with
    | ⟨0, _⟩ => by
      show 0 = if (1 : ℕ) = 1 then 0 else (j 0).val
      rw [if_pos rfl]
    | ⟨1, _⟩ => by
      show (j 1).val = if N = 1 then 0 else (j 1).val
      have := idx2_lt1 j
      split <;> omega)

/-- A scalar broadcast to any shape: every entry is the scalar. -/
theorem brg_bcast_scalar_apply {t : Shape} (c : (⟨0, ![]⟩ : Shape).Idx → α)
    (h : (⟨0, ![]⟩ : Shape).BroadcastsInDim t ![]) (j : t.Idx) :
    broadcastInDim t ![] h c j = c ix0 :=
  broadcastInDim_apply _ h c j _ (fun a => a.elim0)

end Layout

/-! ## The two matrix products -/

/-- The first layer's product: narrowing to bf16 is the identity on the extended reals, and both sides are, entry by
    entry, `Σ k, x (r, k) · w (k, c)`. -/
theorem brg_mm256 (x : (⟨S20000x512, .f32⟩ : BufTy).Contents (Elt Ideal)) (w : (⟨S512x256, .f32⟩ : BufTy).Contents (Elt Ideal))
    (h₁ h₂ : FTy.bits .bf16 < FTy.bits .f32) :
    mm 20000 512 256 (truncf (F := Ideal) .bf16 x h₁) (truncf (F := Ideal) .bf16 w h₂)
      = Host.dotGeneral (F := Ideal) (φ₁ := .f32) (φ₂ := .f32) dot_S20000x512_S512x256_S20000x256_1_0_0_1_n_n none x w := by
  funext j
  exact (Cert.PlainDot.dotGeneral_apply 20000 512 256 (φ₁ := .f32) (φ₂ := .f32) none _ x w j).symm

/-- The second layer's product, likewise. -/
theorem brg_mm40 (x : (⟨S20000x256, .f32⟩ : BufTy).Contents (Elt Ideal)) (w : (⟨S256x40, .f32⟩ : BufTy).Contents (Elt Ideal))
    (h₁ h₂ : FTy.bits .bf16 < FTy.bits .f32) :
    mm 20000 256 40 (truncf (F := Ideal) .bf16 x h₁) (truncf (F := Ideal) .bf16 w h₂)
      = Host.dotGeneral (F := Ideal) (φ₁ := .f32) (φ₂ := .f32) dot_S20000x256_S256x40_S20000x40_1_0_0_1_n_n none x w := by
  funext j
  exact (Cert.PlainDot.dotGeneral_apply 20000 256 40 (φ₁ := .f32) (φ₂ := .f32) none _ x w j).symm

/-! ## The two epilogues -/

/-- The first layer's epilogue: at entry `(r, c)` both sides are `max (a (r, c) + h (r, c) · d r + b c) 0`; the
    self-loop weights reach the entry through a reshape to a column on one side and through two broadcasts on the other,
    the bias through a reshape to a row and through two broadcasts, the zero as the same float word. -/
theorem brg_epi256 (a h : (⟨S20000x256, .f32⟩ : BufTy).Contents (Elt Ideal)) (d : (⟨S20000, .f32⟩ : BufTy).Contents (Elt Ideal))
    (b : (⟨S256, .f32⟩ : BufTy).Contents (Elt Ideal)) (hd : S20000.ShapeCasts S20000x1) (hb : S256.ShapeCasts S1x256) :
    epiRelu 20000 256 a h (shapeCast S20000x1 d hd) (shapeCast S1x256 b hb) = refEpilogue256 (F := Ideal) a h d b := by
  funext j
  have e1 : shapeCast S20000x1 d hd (ix2 (j 0) 0) = d (ix1 (j 0)) := brg_reshape_col_apply d hd _
  have e2 : shapeCast S1x256 b hb (ix2 0 (j 1)) = b (ix1 (j 1)) := brg_reshape_row_apply b hb _
  have e3 : broadcastInDim S20000x256 ![0, 1] bcast_S20000x1_S20000x256_0_1
      (broadcastInDim S20000x1 ![0] bcast_S20000_S20000x1_0 d) j = d (ix1 (j 0)) :=
    (brg_bcast_cols_apply _ bcast_S20000x1_S20000x256_0_1 j).trans (brg_bcast_col_apply d bcast_S20000_S20000x1_0 _)
  have e4 : broadcastInDim S20000x256 ![0, 1] bcast_S1x256_S20000x256_0_1
      (broadcastInDim S1x256 ![1] bcast_S256_S1x256_1 b) j = b (ix1 (j 1)) :=
    (brg_bcast_rows_apply _ bcast_S1x256_S20000x256_0_1 j).trans (brg_bcast_row_apply b bcast_S256_S1x256_1 _)
  have e5 : broadcastInDim S20000x256 ![] bcast_S_S20000x256 (constant (F := Ideal) S_ .f32 0x00000000#32) j
      = Ideal.ofBits .f32 0x00000000#32 := brg_bcast_scalar_apply _ bcast_S_S20000x256 j
  show max (a j + h j * shapeCast S20000x1 d hd (ix2 (j 0) 0) + shapeCast S1x256 b hb (ix2 0 (j 1)))
        (Ideal.ofBits .f32 0x00000000#32)
      = max (a j + h j * broadcastInDim S20000x256 ![0, 1] bcast_S20000x1_S20000x256_0_1
              (broadcastInDim S20000x1 ![0] bcast_S20000_S20000x1_0 d) j
            + broadcastInDim S20000x256 ![0, 1] bcast_S1x256_S20000x256_0_1
              (broadcastInDim S1x256 ![1] bcast_S256_S1x256_1 b) j)
          (broadcastInDim S20000x256 ![] bcast_S_S20000x256 (constant (F := Ideal) S_ .f32 0x00000000#32) j)
  rw [e1, e2, e3, e4, e5]

/-- The second layer's epilogue: at entry `(r, c)` both sides are `a (r, c) + h (r, c) · d r + b c`. -/
theorem brg_epi40 (a h : (⟨S20000x40, .f32⟩ : BufTy).Contents (Elt Ideal)) (d : (⟨S20000, .f32⟩ : BufTy).Contents (Elt Ideal))
    (b : (⟨S40, .f32⟩ : BufTy).Contents (Elt Ideal)) (hd : S20000.ShapeCasts S20000x1) (hb : S40.ShapeCasts S1x40) :
    epi 20000 40 a h (shapeCast S20000x1 d hd) (shapeCast S1x40 b hb) = refEpilogue40 (F := Ideal) a h d b := by
  funext j
  have e1 : shapeCast S20000x1 d hd (ix2 (j 0) 0) = d (ix1 (j 0)) := brg_reshape_col_apply d hd _
  have e2 : shapeCast S1x40 b hb (ix2 0 (j 1)) = b (ix1 (j 1)) := brg_reshape_row_apply b hb _
  have e3 : broadcastInDim S20000x40 ![0, 1] bcast_S20000x1_S20000x40_0_1
      (broadcastInDim S20000x1 ![0] bcast_S20000_S20000x1_0 d) j = d (ix1 (j 0)) :=
    (brg_bcast_cols_apply _ bcast_S20000x1_S20000x40_0_1 j).trans (brg_bcast_col_apply d bcast_S20000_S20000x1_0 _)
  have e4 : broadcastInDim S20000x40 ![0, 1] bcast_S1x40_S20000x40_0_1
      (broadcastInDim S1x40 ![1] bcast_S40_S1x40_1 b) j = b (ix1 (j 1)) :=
    (brg_bcast_rows_apply _ bcast_S1x40_S20000x40_0_1 j).trans (brg_bcast_row_apply b bcast_S40_S1x40_1 _)
  show a j + h j * shapeCast S20000x1 d hd (ix2 (j 0) 0) + shapeCast S1x40 b hb (ix2 0 (j 1))
      = a j + h j * broadcastInDim S20000x40 ![0, 1] bcast_S20000x1_S20000x40_0_1
              (broadcastInDim S20000x1 ![0] bcast_S20000_S20000x1_0 d) j
            + broadcastInDim S20000x40 ![0, 1] bcast_S1x40_S20000x40_0_1
              (broadcastInDim S1x40 ![1] bcast_S40_S1x40_1 b) j
  rw [e1, e2, e3, e4]

/-! ## The coefficient column -/

/-- A vector as a column, by a reshape or by a broadcast along axis `0`: at `(e, 0)` both are the vector's entry `e`. -/
theorem brg_col (v : (⟨S640000, .f32⟩ : BufTy).Contents (Elt Ideal)) (hv : S640000.ShapeCasts S640000x1) :
    shapeCast S640000x1 v hv = broadcastInDim S640000x1 ![0] bcast_S640000_S640000x1_0 v := by
  funext i
  exact (brg_reshape_col_apply v hv i).trans (brg_bcast_col_apply v bcast_S640000_S640000x1_0 i).symm

/-! ## The network -/

/-- With the four regions' functions in place the kernel's network is the reference's. -/
theorem kernelShape_eq_referenceShape
    (x : (⟨S20000x512, .f32⟩ : BufTy).Contents (Elt Ideal)) (ei : (⟨S2x640000, .i32⟩ : BufTy).Contents (Elt Ideal))
    (w₁ : (⟨S512x256, .f32⟩ : BufTy).Contents (Elt Ideal)) (b₁ : (⟨S256, .f32⟩ : BufTy).Contents (Elt Ideal))
    (w₂ : (⟨S256x40, .f32⟩ : BufTy).Contents (Elt Ideal)) (b₂ : (⟨S40, .f32⟩ : BufTy).Contents (Elt Ideal)) :
    kernelShape (F := Ideal) (mm 20000 512 256) (epiRelu 20000 256) (mm 20000 256 40) (epi 20000 40) x ei w₁ b₁ w₂ b₂
      = referenceShape (F := Ideal) x ei w₁ b₁ w₂ b₂ := by
  unfold kernelShape referenceShape
  dsimp only
  rw [brg_col, brg_mm256, brg_epi256, brg_mm40, brg_epi40]

end Cert.Gcn
end
-- ==== Proof.RunValue.lean ====
/-
  The idealized kernel program's run, with its result named.

  Every weakly fair execution of the program terminates without a fault, leaves the six argument arrays as launched,
  and leaves the result array at the reference's network of those arrays: the buffers at the return are the fold
  of KernelAsOps.lean, whose result buffer is the network with the regions' functions in place (KernelFold.lean), which
  is the reference's network (Bridge.lean).
-/
import proofs.«141251_j16887811408655_1_alg».proof.Proof.Gen.KernelIdeal.Frame
import proofs.«141251_j16887811408655_1_alg».proof.Proof.KernelAsOps
import proofs.«141251_j16887811408655_1_alg».proof.Proof.Bridge

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-- The result buffer at the return holds the reference's network of the launch contents of the arguments. -/
theorem result_at_return (c : Dev nD) :
    W9 m ρ c (Proc.devRef .tc main_v64)
      = Cert.Gcn.referenceShape (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) :=
  (congrFun (Cert.KernelIdeal.Fold.W9_eq m ρ c) (Proc.devRef .tc main_v64)).trans
    ((Cert.KernelIdeal.Fold.chainEnd_result (F := Ideal) _ _ _ _ (W0 m ρ c)).trans
      (Cert.Gcn.kernelShape_eq_referenceShape _ _ _ _ _ _))

-- the launch theorem's implicit arguments are found by unifying its conclusion with this one, which takes unfolding
-- plain definitions in a metavariable's type
set_option backward.isDefEq.respectTransparency.types false in
/-- The run: termination without a fault, the result array at the network of the arguments, the arguments unchanged.
    The launch runs over the program's nine segments (five host stretches, four regions); the last boundary's
    contents are read at the result buffer as well as at the six arguments. -/
theorem run_result : θ_run defs (onTc (τ := τ) (main (F := Ideal))) ⟨m, fun _ => 0, ρ⟩ (fun r => ∀ c : Dev nD,
      r.2.mem ((c.tc : Thread nD τ).loc main_v64) = Cert.Gcn.referenceShape (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨(h c _ (mem_uc main_v64 (by decide))).trans (result_at_return m ρ c),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c)⟩)

end Cert.KernelIdeal.Gen

end
-- ==== Proof.RefIsSpec.lean ====
/-
  The reference program's result is the network as Spec.lean spells it.

  The reference is a straight line of host operations; its run's composed term, with the named pieces folded back
  (the edge rows, the index wrap, the degree normalisation, the two edge sums, the two epilogues), is
  `referenceShape` of the six arguments. Nothing is computed here: the two terms are the same operations in the same
  order, for any float instance.
-/
import proofs.«141251_j16887811408655_1_alg».proof.Proof.Gen.ReferenceIdeal.Run
import proofs.«141251_j16887811408655_1_alg».proof.Proof.Spec

noncomputable section

namespace Cert.ReferenceIdeal.RefValue

open Idealize.ShloMosaic Idealize.ShloMosaic.TcCoe Idealize.SL.Sem Cert.ReferenceIdeal Cert.ReferenceIdeal.Gen

variable {F : FTy → Type} [FloatOps F]

set_option maxRecDepth 16384 in
set_option maxHeartbeats 2000000 in
/-- The run's result term is the reference's network of the argument arrays. -/
theorem result_eq_network (m : (ℓ : Loc nD τ sig) → Buf (Elt F) ℓ) (c : Dev nD) :
    Cert.ReferenceIdeal.Value.res_main_v87 (F := F) m c
      = Cert.Gcn.referenceShape (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  unfold Cert.ReferenceIdeal.Value.res_main_v87
  rfl

end Cert.ReferenceIdeal.RefValue

end
-- ==== Proof.lean ====
/-
  A two-layer graph convolution: the kernel program against its reference, on the extended reals.

  Both programs compute, from node features `x`, an edge list, two weight matrices and two biases,
  `layer₂ (relu (layer₁ (x · W₁)) · W₂) / 1`, where a layer adds to each node's features the sum over its incoming
  edges of the source's features scaled by `dinv (src) · dinv (dst)`, its own features scaled by `dinv²`, and the bias
  (`dinv = deg^(-1/2)`, the in-degree plus one). The reference spells every step as a host operation. The kernel
  program keeps the gathers and scatter-adds on the host and runs the two matrix products and the two epilogues as
  pipelined regions over ten row blocks of 2000 nodes, the products on operands narrowed to bf16.

  At the ideal instance narrowing is the identity, a product of a row block with the whole weight matrix is the row
  block of the whole product (both are the same sums over the contracted axis), and an epilogue block is the
  epilogue of the arrays' rows; so each region leaves its output array at one whole-array function of its input
  arrays (RegionMatmul.lean, RegionEpilogue.lean), the program reads as one straight line of operations
  (KernelAsOps.lean, KernelFold.lean) whose result is the network of Spec.lean, and that network is the reference's
  (Bridge.lean, RefIsSpec.lean). No law beyond the sums' definitions is used, so the inputs' finiteness is never
  opened. The word-level kernel needs only its frame; the ideal pass rewrote nothing, so `preserves` is `True`.
-/
import proofs.«141251_j16887811408655_1_alg».proof.Defs
import proofs.«141251_j16887811408655_1_alg».proof.Proof.Gen.Kernel
import proofs.«141251_j16887811408655_1_alg».proof.Proof.Gen.Kernel.Frame
import proofs.«141251_j16887811408655_1_alg».proof.Proof.Gen.KernelIdeal
import proofs.«141251_j16887811408655_1_alg».proof.Proof.Gen.KernelIdeal.Frame
import proofs.«141251_j16887811408655_1_alg».proof.Proof.Gen.ReferenceIdeal
import proofs.«141251_j16887811408655_1_alg».proof.Proof.Gen.ReferenceIdeal.Run
import proofs.«141251_j16887811408655_1_alg».proof.Proof.Gen.Pre_finite_inputs
import proofs.«141251_j16887811408655_1_alg».proof.Proof.RunValue
import proofs.«141251_j16887811408655_1_alg».proof.Proof.RefIsSpec
import Idealize.ShloMosaic.Adequacy
import Idealize.ShloMosaic.Init

noncomputable section

namespace Cert.Proof

open Idealize.ShloMosaic Idealize.ShloMosaic.TcCoe Idealize.SL.Sem

/-- The word-level kernel program terminates without a fault and leaves its arguments as launched. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- So does the reference: its run with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- From memories agreeing on the six arguments both idealized programs end with the result array at the
    reference's network of the arguments (the kernel program by its run read as a fold, the reference by its run's
    term), and with the arguments unchanged. -/
theorem algebraic : Cert.algebraic_KernelIdeal_ReferenceIdeal := by
  intro m ρ m' ρ' _ hagree
  refine ⟨fun c => Cert.Gcn.referenceShape (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)),
    Cert.KernelIdeal.Gen.run_result m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.RefValue.result_eq_network, (hagree c).1, (hagree c).2.1, (hagree c).2.2.1,
    (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
